-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S2x2048x1024 .f32) (main_arg1 : FVec F S3072x1024 .f32) (main_arg2 : FVec F S1024x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S2x2048x1024 : Shape := ⟨3, ![2, 2048, 1024]⟩
abbrev S3072x1024 : Shape := ⟨2, ![3072, 1024]⟩
abbrev S1024x1024 : Shape := ⟨2, ![1024, 1024]⟩
abbrev S48x64x1024 : Shape := ⟨3, ![48, 64, 1024]⟩
abbrev S3x32x2048x64 : Shape := ⟨4, ![3, 32, 2048, 64]⟩
abbrev S1x512x1024 : Shape := ⟨3, ![1, 512, 1024]⟩
abbrev S1x64x1024 : Shape := ⟨3, ![1, 64, 1024]⟩
abbrev S1x1x512x64 : Shape := ⟨4, ![1, 1, 512, 64]⟩
abbrev S512x1024 : Shape := ⟨2, ![512, 1024]⟩
abbrev S64x1024 : Shape := ⟨2, ![64, 1024]⟩
abbrev S512x64 : Shape := ⟨2, ![512, 64]⟩
abbrev S1x32x2048x64 : Shape := ⟨4, ![1, 32, 2048, 64]⟩
abbrev S32x2048x64 : Shape := ⟨3, ![32, 2048, 64]⟩
abbrev S1x512x64 : Shape := ⟨3, ![1, 512, 64]⟩
abbrev S1x2048x64 : Shape := ⟨3, ![1, 2048, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S16x64x1024 : Shape := ⟨3, ![16, 64, 1024]⟩

abbrev nBuf : Space → Nat
  | .hbm => 15
  | .vmem => 20
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S48x64x1024, .f32⟩
  | .hbm, ⟨4, _⟩ => ⟨S3x32x2048x64, .bf16⟩
  | .hbm, ⟨5, _⟩ => ⟨S1x32x2048x64, .bf16⟩
  | .hbm, ⟨6, _⟩ => ⟨S32x2048x64, .bf16⟩
  | .hbm, ⟨7, _⟩ => ⟨S1x32x2048x64, .bf16⟩
  | .hbm, ⟨8, _⟩ => ⟨S32x2048x64, .bf16⟩
  | .hbm, ⟨9, _⟩ => ⟨S1x32x2048x64, .bf16⟩
  | .hbm, ⟨10, _⟩ => ⟨S32x2048x64, .bf16⟩
  | .hbm, ⟨11, _⟩ => ⟨S32x2048x64, .bf16⟩
  | .hbm, ⟨12, _⟩ => ⟨S1024x1024, .f32⟩
  | .hbm, ⟨13, _⟩ => ⟨S16x64x1024, .f32⟩
  | .hbm, ⟨14, _⟩ => ⟨S2x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x64x1024, .f32⟩
  | .local _ .vmem, ⟨3, _⟩ => ⟨S1x64x1024, .f32⟩
  | .local _ .vmem, ⟨4, _⟩ => ⟨S1x1x512x64, .bf16⟩
  | .local _ .vmem, ⟨5, _⟩ => ⟨S1x1x512x64, .bf16⟩
  | .local _ .vmem, ⟨6, _⟩ => ⟨S1x512x64, .bf16⟩
  | .local _ .vmem, ⟨7, _⟩ => ⟨S1x512x64, .bf16⟩
  | .local _ .vmem, ⟨8, _⟩ => ⟨S1x2048x64, .bf16⟩
  | .local _ .vmem, ⟨9, _⟩ => ⟨S1x2048x64, .bf16⟩
  | .local _ .vmem, ⟨10, _⟩ => ⟨S1x2048x64, .bf16⟩
  | .local _ .vmem, ⟨11, _⟩ => ⟨S1x2048x64, .bf16⟩
  | .local _ .vmem, ⟨12, _⟩ => ⟨S1x512x64, .bf16⟩
  | .local _ .vmem, ⟨13, _⟩ => ⟨S1x512x64, .bf16⟩
  | .local _ .vmem, ⟨14, _⟩ => ⟨S1x512x64, .bf16⟩
  | .local _ .vmem, ⟨15, _⟩ => ⟨S1x512x64, .bf16⟩
  | .local _ .vmem, ⟨16, _⟩ => ⟨S1x64x1024, .f32⟩
  | .local _ .vmem, ⟨17, _⟩ => ⟨S1x64x1024, .f32⟩
  | .local _ .vmem, ⟨18, _⟩ => ⟨S1x512x1024, .f32⟩
  | .local _ .vmem, ⟨19, _⟩ => ⟨S1x512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨3, ![2, 4, 48], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.divsi arg2 c16_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg2 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32_10 : BitVec 32 := 16#32
  let v27 : BitVec 32 := Scalar.muli arg0 c16_i32_10
  let v28 : BitVec 32 := Scalar.addi v27 v26
  let c0_i32_11 : BitVec 32 := 0#32
  let c0_i32_12 : BitVec 32 := 0#32
  ![v16.toNat, v28.toNat, arg1.toNat, c0_i32_11.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1x512x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev grid1 : Pipeline.Grid := ⟨2, ![32, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨3, ![2, 4, 16], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![v1.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage2_0 : Fin 2 → Memref sig .tc .vmem S1x512x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S1x64x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, false, true]

abbrev stage2_2 : Fin 2 → Memref sig .tc .vmem S1x512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

class Facts₀ : Prop where
  shapeCasts_S3072x1024_S48x64x1024 : S3072x1024.ShapeCasts S48x64x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  shapeCasts_S512x64_S1x1x512x64 : S512x64.ShapeCasts S1x1x512x64
  packedbf16_S1x1x512x64_S1x1x512x64_0_0_0_0 : (Rect.unit (s := S1x1x512x64) ![0, 0, 0, 0] S1x1x512x64.size inb_S1x1x512x64_S1x1x512x64_0_0_0_0).PackedRows (EltTy.packing .bf16)
  slices_S3x32x2048x64_S1x32x2048x64_0_0_0_0 : S3x32x2048x64.Slices ![0, 0, 0, 0] S1x32x2048x64
  shapeCasts_S1x32x2048x64_S32x2048x64 : S1x32x2048x64.ShapeCasts S32x2048x64
  slices_S3x32x2048x64_S1x32x2048x64_1_0_0_0 : S3x32x2048x64.Slices ![1, 0, 0, 0] S1x32x2048x64
  slices_S3x32x2048x64_S1x32x2048x64_2_0_0_0 : S3x32x2048x64.Slices ![2, 0, 0, 0] S1x32x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  shapeCasts_S512x64_S1x512x64 : S512x64.ShapeCasts S1x512x64
  packedbf16_S1x512x64_S1x512x64_0_0_0 : (Rect.unit (s := S1x512x64) ![0, 0, 0] S1x512x64.size inb_S1x512x64_S1x512x64_0_0_0).PackedRows (EltTy.packing .bf16)
  transposes_S1024x1024_S1024x1024_1_0 : S1024x1024.Transposes [1, 0] S1024x1024
  shapeCasts_S1024x1024_S16x64x1024 : S1024x1024.ShapeCasts S16x64x1024
  shapeCasts_S512x1024_S1x512x1024 : S512x1024.ShapeCasts S1x512x1024
  dot_S512x1024_S64x1024_S512x64_1_1_0_0_n_n_wf : DotDims.WF S512x1024 S64x1024 S512x64 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x64_S64x1024_S512x1024_1_0_0_1_n_n_wf : DotDims.WF S512x64 S64x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S2x2048x1024.size a
  hwx0_0 : ∀ i : grid0.Coords, EltTy.bits .f32 = 32 ∨ (Rect.block (s := S2x2048x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x1024.size a ≤ S48x64x1024.size a
  hwx0_1 : ∀ i : grid0.Coords, EltTy.bits .f32 = 32 ∨ (Rect.block (s := S48x64x1024) S1x64x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512x64.size a ≤ S3x32x2048x64.size a
  hwx0_2 : ∀ i : grid0.Coords, EltTy.bits .bf16 = 32 ∨ (Rect.block (s := S3x32x2048x64) S1x1x512x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S32x2048x64.size a
  hwx1_0 : ∀ i : grid1.Coords, EltTy.bits .bf16 = 32 ∨ (Rect.block (s := S32x2048x64) S1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S32x2048x64.size a
  hwx1_1 : ∀ i : grid1.Coords, EltTy.bits .bf16 = 32 ∨ (Rect.block (s := S32x2048x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S32x2048x64.size a
  hwx1_2 : ∀ i : grid1.Coords, EltTy.bits .bf16 = 32 ∨ (Rect.block (s := S32x2048x64) S1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x64.size a ≤ S32x2048x64.size a
  hwx1_3 : ∀ i : grid1.Coords, EltTy.bits .bf16 = 32 ∨ (Rect.block (s := S32x2048x64) S1x512x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x64.size a ≤ S32x2048x64.size a
  hwx2_0 : ∀ i : grid2.Coords, EltTy.bits .bf16 = 32 ∨ (Rect.block (s := S32x2048x64) S1x512x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x64x1024.size a ≤ S16x64x1024.size a
  hwx2_1 : ∀ i : grid2.Coords, EltTy.bits .f32 = 32 ∨ (Rect.block (s := S16x64x1024) S1x64x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512x1024.size a ≤ S2x2048x1024.size a
  hwx2_2 : ∀ i : grid2.Coords, EltTy.bits .f32 = 32 ∨ (Rect.block (s := S2x2048x1024) S1x512x1024.size (cc2_transform_2 i) (hinb2_2 i)).WholeWords (EltTy.packing .f32)

variable [Facts₀]

def dot_S512x1024_S64x1024_S512x64_1_1_0_0_n_n : DotDims S512x1024 S64x1024 S512x64 where
  lhsContracting := [1]
  rhsContracting := [1]
  lhsNonContracting := [0]
  rhsNonContracting := [0]
  lhsBatch := []
  rhsBatch := []
  wf := dot_S512x1024_S64x1024_S512x64_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x512x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v8) S1x512x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S1x64x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S1x512x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S1024x1024 : Shape := ⟨2, ![1024, 1024]⟩
abbrev S2x2048x3072 : Shape := ⟨3, ![2, 2048, 3072]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 35
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S2x2048x3072, .f32⟩
  | .hbm, ⟨4, _⟩ => ⟨S2x2048x1024, .f32⟩
  | .hbm, ⟨5, _⟩ => ⟨S2x2048x1024, .f32⟩
  | .hbm, ⟨6, _⟩ => ⟨S2x2048x1024, .f32⟩
  | .hbm, ⟨7, _⟩ => ⟨S2x2048x16x64, .f32⟩
  | .hbm, ⟨8, _⟩ => ⟨S2x16x2048x64, .f32⟩
  | .hbm, ⟨9, _⟩ => ⟨S2x2048x16x64, .f32⟩
  | .hbm, ⟨10, _⟩ => ⟨S2x16x2048x64, .f32⟩
  | .hbm, ⟨11, _⟩ => ⟨S2x2048x16x64, .f32⟩
  | .hbm, ⟨12, _⟩ => ⟨S2x16x2048x64, .f32⟩
  | .hbm, ⟨13, _⟩ => ⟨S2x16x2048x2048, .f32⟩
  | .hbm, ⟨14, _⟩ => ⟨S_, .f32⟩
  | .hbm, ⟨15, _⟩ => ⟨S2x16x2048x2048, .f32⟩
  | .hbm, ⟨16, _⟩ => ⟨S2x16x2048x2048, .f32⟩
  | .hbm, ⟨17, _⟩ => ⟨S_, .f32⟩
  | .hbm, ⟨18, _⟩ => ⟨S2x16x2048, .f32⟩
  | .hbm, ⟨19, _⟩ => ⟨S_, .f32⟩
  | .hbm, ⟨20, _⟩ => ⟨S2x16x2048, .f32⟩
  | .hbm, ⟨21, _⟩ => ⟨S2x16x2048, .f32⟩
  | .hbm, ⟨22, _⟩ => ⟨S2x16x2048x1, .f32⟩
  | .hbm, ⟨23, _⟩ => ⟨S2x16x2048x2048, .f32⟩
  | .hbm, ⟨24, _⟩ => ⟨S2x16x2048x2048, .f32⟩
  | .hbm, ⟨25, _⟩ => ⟨S2x16x2048x2048, .f32⟩
  | .hbm, ⟨26, _⟩ => ⟨S_, .f32⟩
  | .hbm, ⟨27, _⟩ => ⟨S2x16x2048, .f32⟩
  | .hbm, ⟨28, _⟩ => ⟨S2x16x2048x1, .f32⟩
  | .hbm, ⟨29, _⟩ => ⟨S2x16x2048x2048, .f32⟩
  | .hbm, ⟨30, _⟩ => ⟨S2x16x2048x2048, .f32⟩
  | .hbm, ⟨31, _⟩ => ⟨S2x16x2048x64, .f32⟩
  | .hbm, ⟨32, _⟩ => ⟨S2x2048x16x64, .f32⟩
  | .hbm, ⟨33, _⟩ => ⟨S2x2048x1024, .f32⟩
  | .hbm, ⟨34, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]

class Facts₀ : Prop where
  slices_S2x2048x3072_S2x2048x1024_0_0_0 : S2x2048x3072.Slices ![0, 0, 0] S2x2048x1024
  slices_S2x2048x3072_S2x2048x1024_0_0_1024 : S2x2048x3072.Slices ![0, 0, 1024] S2x2048x1024
  slices_S2x2048x3072_S2x2048x1024_0_0_2048 : S2x2048x3072.Slices ![0, 0, 2048] S2x2048x1024
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.KernelRun.lean ====
/-
  The idealized kernel's run with its RESULT named. The program is three pipelined regions among stretches of host
  operations; at its return every unscoped buffer of a core holds the last boundary's contents, so the result array
  holds what the third region's write-backs leave in it, and each argument what it held at launch.
-/
import proofs.«102044_j74131135529907_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the contents the last
    boundary gives it and the three argument arrays as launched. -/
theorem run_main : θ_run defs (onTc (τ := τ) (main (F := F))) ⟨m, fun _ => 0, ρ⟩ (fun r => ∀ c : Dev nD,
      r.2.mem ((c.tc : Thread nD τ).loc main_v11) = W6 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v11 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c)⟩)

end Cert.KernelIdeal.Whole

end
-- ==== Proof.HostStretch.lean ====
/-
  The host operations between the regions, read as values. Before the first region the stacked weight is reshaped
  into 48 groups of 64 rows. Between the first and the second the projected array is cut along its leading axis into
  the query, key and value arrays. Before the third the output weight is transposed and reshaped into 16 groups of 64
  rows; the context array is what the second region left.
-/
import proofs.«102044_j74131135529907_2_alg».proof.Proof.Gen.KernelIdeal.Frame
import Idealize.ShloMosaic.Lib.StableHlo.Run
import Idealize.ShloMosaic.Lib.Tactic

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-- The first region finds the input as launched. -/
theorem entry0_x (c : Dev nD) : V1 m ρ c main_arg0 = m ((c : Thread nD τ).loc main_arg0) := by
  show StableHlo.after hostOps0 (W0 m ρ c) (Proc.devRef .tc main_arg0) = _
  after_results

/-- The first region finds the stacked weight reshaped into 48 groups of 64 rows. -/
theorem entry0_w (c : Dev nD) : V1 m ρ c main_v0
    = shapeCast S48x64x1024 (m ((c : Thread nD τ).loc main_arg1)) Facts₀.shapeCasts_S3072x1024_S48x64x1024 := by
  show StableHlo.after hostOps0 (W0 m ρ c) (Proc.devRef .tc main_v0) = _
  after_results
  rfl

/-- The second region finds the query array: the leading slice 0 of what the first region left, its unit axis dropped. -/
theorem entry1_q (c : Dev nD) : V3 m ρ c main_v3
    = shapeCast S32x2048x64 (extractStridedSlice S1x32x2048x64 ![0, 0, 0, 0] (W2 m ρ c (Proc.devRef .tc main_v1)) Facts₀.slices_S3x32x2048x64_S1x32x2048x64_0_0_0_0) Facts₀.shapeCasts_S1x32x2048x64_S32x2048x64 := by
  show StableHlo.after hostOps1 (W2 m ρ c) (Proc.devRef .tc main_v3) = _
  after_results
  rfl

/-- The key array: the leading slice 1. -/
theorem entry1_k (c : Dev nD) : V3 m ρ c main_v5
    = shapeCast S32x2048x64 (extractStridedSlice S1x32x2048x64 ![1, 0, 0, 0] (W2 m ρ c (Proc.devRef .tc main_v1)) Facts₀.slices_S3x32x2048x64_S1x32x2048x64_1_0_0_0) Facts₀.shapeCasts_S1x32x2048x64_S32x2048x64 := by
  show StableHlo.after hostOps1 (W2 m ρ c) (Proc.devRef .tc main_v5) = _
  after_results
  rfl

/-- The value array: the leading slice 2. -/
theorem entry1_v (c : Dev nD) : V3 m ρ c main_v7
    = shapeCast S32x2048x64 (extractStridedSlice S1x32x2048x64 ![2, 0, 0, 0] (W2 m ρ c (Proc.devRef .tc main_v1)) Facts₀.slices_S3x32x2048x64_S1x32x2048x64_2_0_0_0) Facts₀.shapeCasts_S1x32x2048x64_S32x2048x64 := by
  show StableHlo.after hostOps1 (W2 m ρ c) (Proc.devRef .tc main_v7) = _
  after_results
  rfl

/-- The third region finds the context array as the second region left it. -/
theorem entry2_ctx (c : Dev nD) : V5 m ρ c main_v8 = W4 m ρ c (Proc.devRef .tc main_v8) := by
  show StableHlo.after hostOps2 (W4 m ρ c) (Proc.devRef .tc main_v8) = _
  after_results

/-- The third region finds the output weight transposed and reshaped into 16 groups of 64 rows. -/
theorem entry2_w (c : Dev nD) : V5 m ρ c main_v10
    = shapeCast S16x64x1024 (transpose S1024x1024 [1, 0] (W4 m ρ c (Proc.devRef .tc main_arg2)) Facts₀.transposes_S1024x1024_S1024x1024_1_0) Facts₀.shapeCasts_S1024x1024_S16x64x1024 := by
  show StableHlo.after hostOps2 (W4 m ρ c) (Proc.devRef .tc main_v10) = _
  after_results
  rfl

/-- No region and no host operation before the third region writes the output weight: it is as launched. -/
theorem kept_w_out (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.reshape_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg2) := rfl

end Cert.KernelIdeal.Host

end
-- ==== Proof.ProjBody.lean ====
/-
  The two projection bodies at one output element, over the extended reals: each is a matrix product into a zero
  accumulator, so an element is a plain sum of products over the contracted axis; the output projection then adds the
  product to what its output block already holds, and its reset stores zeros.
-/
import proofs.«102044_j74131135529907_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- A [a, b] array cast to [1, 1, a, b] reads, at (u, v, i, j), the operand at (i, j). -/
theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = (((u.val * 1 + v.val) * a + i.val) * b + j.val)
    simp only [hu, hv, Nat.zero_mul, Nat.zero_add])

/-- The first projection's product contracts axis 1 of both operands: the output's row indexes the left operand's
    axis 0, the output's column the right operand's axis 0, and the contraction index axis 1 of both. -/
theorem proj_lhs_0 (i : S512x64.Idx) (q : dot_S512x1024_S64x1024_S512x64_1_1_0_0_n_n.contr.Idx) :
    (dot_S512x1024_S64x1024_S512x64_1_1_0_0_n_n.lhsIdx i q 0).val = (i 0).val := by
  unfold DotDims.lhsIdx
  rw [dif_neg (show ¬(0 : Fin S512x1024.rank) ∈ dot_S512x1024_S64x1024_S512x64_1_1_0_0_n_n.lhsBatch by decide), dif_pos (show (0 : Fin S512x1024.rank) ∈ dot_S512x1024_S64x1024_S512x64_1_1_0_0_n_n.lhsNonContracting by decide)]
  rfl
theorem proj_lhs_1 (i : S512x64.Idx) (q : dot_S512x1024_S64x1024_S512x64_1_1_0_0_n_n.contr.Idx) :
    (dot_S512x1024_S64x1024_S512x64_1_1_0_0_n_n.lhsIdx i q 1).val = (q ⟨0, by decide⟩).val :=
  dot_S512x1024_S64x1024_S512x64_1_1_0_0_n_n.lhsIdx_val_of_single rfl i q
theorem proj_rhs_0 (i : S512x64.Idx) (q : dot_S512x1024_S64x1024_S512x64_1_1_0_0_n_n.contr.Idx) :
    (dot_S512x1024_S64x1024_S512x64_1_1_0_0_n_n.rhsIdx i q 0).val = (i 1).val := by
  unfold DotDims.rhsIdx
  rw [dif_neg (show ¬(0 : Fin S64x1024.rank) ∈ dot_S512x1024_S64x1024_S512x64_1_1_0_0_n_n.rhsBatch by decide), dif_pos (show (0 : Fin S64x1024.rank) ∈ dot_S512x1024_S64x1024_S512x64_1_1_0_0_n_n.rhsNonContracting by decide)]
  rfl
theorem proj_rhs_1 (i : S512x64.Idx) (q : dot_S512x1024_S64x1024_S512x64_1_1_0_0_n_n.contr.Idx) :
    (dot_S512x1024_S64x1024_S512x64_1_1_0_0_n_n.rhsIdx i q 1).val = (q ⟨0, by decide⟩).val :=
  dot_S512x1024_S64x1024_S512x64_1_1_0_0_n_n.rhsIdx_val_of_single rfl i q

/-- Element (r, e) of the first projection's stored block: row r of the input block against row e of the weight block. -/
theorem proj_body_apply (x : Vec Ideal S1x512x1024 .f32) (w : Vec Ideal S1x64x1024 .f32) (r : Fin 512) (e : Fin 64) :
    k0_pay1 (F := Ideal) x w (ix4 (0 : Fin 1) (0 : Fin 1) r e)
      = ∑ d : Fin 1024, x (ix3 (0 : Fin 1) r d) * w (ix3 (0 : Fin 1) e d) := by
  unfold k0_pay1
  rw [shapeCast_ab_11ab_apply, truncf_apply]
  simp only [matmul]
  rw [Ideal.matmul_constant_zero_apply, ← Equiv.sum_comp (contrEquiv1 dot_S512x1024_S64x1024_S512x64_1_1_0_0_n_n 1024 rfl rfl).symm]
  refine Finset.sum_congr rfl fun k _ => ?_
  have hk := contrEquiv1_symm_val dot_S512x1024_S64x1024_S512x64_1_1_0_0_n_n 1024 rfl rfl k
  have el : dot_S512x1024_S64x1024_S512x64_1_1_0_0_n_n.lhsIdx (ix2 r e) ((contrEquiv1 dot_S512x1024_S64x1024_S512x64_1_1_0_0_n_n 1024 rfl rfl).symm k) = ix2 r k := funext fun a => Fin.ext (by
    match a with
    | ⟨0, _⟩ => exact proj_lhs_0 _ _
    | ⟨1, _⟩ => exact (proj_lhs_1 _ _).trans hk)
  have er : dot_S512x1024_S64x1024_S512x64_1_1_0_0_n_n.rhsIdx (ix2 r e) ((contrEquiv1 dot_S512x1024_S64x1024_S512x64_1_1_0_0_n_n 1024 rfl rfl).symm k) = ix2 e k := funext fun a => Fin.ext (by
    match a with
    | ⟨0, _⟩ => exact proj_rhs_0 _ _
    | ⟨1, _⟩ => exact (proj_rhs_1 _ _).trans hk)
  rw [el, er, truncf_apply, truncf_apply, shapeCast_1ab_ab_apply, shapeCast_1ab_ab_apply]

/-- The output projection's product contracts the left operand's axis 1 with the right operand's axis 0: the output's
    row indexes the left operand's axis 0, the output's column the right operand's axis 1. -/
theorem out_lhs_0 (i : S512x1024.Idx) (q : dot_S512x64_S64x1024_S512x1024_1_0_0_1_n_n.contr.Idx) :
    (dot_S512x64_S64x1024_S512x1024_1_0_0_1_n_n.lhsIdx i q 0).val = (i 0).val := by
  unfold DotDims.lhsIdx
  rw [dif_neg (show ¬(0 : Fin S512x64.rank) ∈ dot_S512x64_S64x1024_S512x1024_1_0_0_1_n_n.lhsBatch by decide), dif_pos (show (0 : Fin S512x64.rank) ∈ dot_S512x64_S64x1024_S512x1024_1_0_0_1_n_n.lhsNonContracting by decide)]
  rfl
theorem out_lhs_1 (i : S512x1024.Idx) (q : dot_S512x64_S64x1024_S512x1024_1_0_0_1_n_n.contr.Idx) :
    (dot_S512x64_S64x1024_S512x1024_1_0_0_1_n_n.lhsIdx i q 1).val = (q ⟨0, by decide⟩).val :=
  dot_S512x64_S64x1024_S512x1024_1_0_0_1_n_n.lhsIdx_val_of_single rfl i q
theorem out_rhs_0 (i : S512x1024.Idx) (q : dot_S512x64_S64x1024_S512x1024_1_0_0_1_n_n.contr.Idx) :
    (dot_S512x64_S64x1024_S512x1024_1_0_0_1_n_n.rhsIdx i q 0).val = (q ⟨0, by decide⟩).val :=
  dot_S512x64_S64x1024_S512x1024_1_0_0_1_n_n.rhsIdx_val_of_single rfl i q
theorem out_rhs_1 (i : S512x1024.Idx) (q : dot_S512x64_S64x1024_S512x1024_1_0_0_1_n_n.contr.Idx) :
    (dot_S512x64_S64x1024_S512x1024_1_0_0_1_n_n.rhsIdx i q 1).val = (i 1).val := by
  unfold DotDims.rhsIdx
  rw [dif_neg (show ¬(1 : Fin S64x1024.rank) ∈ dot_S512x64_S64x1024_S512x1024_1_0_0_1_n_n.rhsBatch by decide), dif_pos (show (1 : Fin S64x1024.rank) ∈ dot_S512x64_S64x1024_S512x1024_1_0_0_1_n_n.rhsNonContracting by decide)]
  rfl

/-- Element (r, e) of the output projection's accumulating store: what the block held, plus row r of the context
    block against column e of the weight block. -/
theorem out_body_apply (ctx : Vec Ideal S1x512x64 .bf16) (w : Vec Ideal S1x64x1024 .f32) (acc : Vec Ideal S1x512x1024 .f32)
    (r : Fin 512) (e : Fin 1024) :
    k2_pay2 (F := Ideal) ctx w acc (ix3 (0 : Fin 1) r e)
      = acc (ix3 (0 : Fin 1) r e) + ∑ d : Fin 64, ctx (ix3 (0 : Fin 1) r d) * w (ix3 (0 : Fin 1) d e) := by
  unfold k2_pay2
  rw [shapeCast_ab_1ab_apply, addf_apply, shapeCast_1ab_ab_apply]
  simp only [matmul]
  rw [Ideal.matmul_constant_zero_apply, ← Equiv.sum_comp (contrEquiv1 dot_S512x64_S64x1024_S512x1024_1_0_0_1_n_n 64 rfl rfl).symm]
  refine congrArg (acc (ix3 (0 : Fin 1) r e) + ·) (Finset.sum_congr rfl fun k _ => ?_)
  have hk := contrEquiv1_symm_val dot_S512x64_S64x1024_S512x1024_1_0_0_1_n_n 64 rfl rfl k
  have el : dot_S512x64_S64x1024_S512x1024_1_0_0_1_n_n.lhsIdx (ix2 r e) ((contrEquiv1 dot_S512x64_S64x1024_S512x1024_1_0_0_1_n_n 64 rfl rfl).symm k) = ix2 r k := funext fun a => Fin.ext (by
    match a with
    | ⟨0, _⟩ => exact out_lhs_0 _ _
    | ⟨1, _⟩ => exact (out_lhs_1 _ _).trans hk)
  have er : dot_S512x64_S64x1024_S512x1024_1_0_0_1_n_n.rhsIdx (ix2 r e) ((contrEquiv1 dot_S512x64_S64x1024_S512x1024_1_0_0_1_n_n 64 rfl rfl).symm k) = ix2 k e := funext fun a => Fin.ext (by
    match a with
    | ⟨0, _⟩ => exact (out_rhs_0 _ _).trans hk
    | ⟨1, _⟩ => exact out_rhs_1 _ _)
  rw [el, er, truncf_apply, shapeCast_1ab_ab_apply, shapeCast_1ab_ab_apply]

/-- The reset stores zero everywhere. -/
theorem zero_body_apply (i : S1x512x1024.Idx) : k2_pay1 (F := Ideal) i = 0 := by
  unfold k2_pay1 shapeCast
  rw [broadcast_apply]
  exact Ideal.ofBits_zero_f32

end Cert.KernelIdeal.Body

end
-- ==== Proof.Region0.lean ====
/-
  The first region: the fused projection. Grid point (b, si, g) takes rows si*512 .. si*512+511 of batch b of the input
  and the 64 rows g*64 .. g*64+63 of the stacked weight, and writes their 512 x 64 product to block
  (g div 16, b*16 + g mod 16, si) of the [3, 32, 2048, 64] array. So after the run the array holds, at (three, bh, s, e),
  the product of input row (bh div 16, s) with weight row (three*16 + bh mod 16)*64 + e: every point writes its own block
  and the blocks tile the array.
-/
import proofs.«102044_j74131135529907_2_alg».proof.Proof.Gen.KernelIdeal.Frame
import proofs.«102044_j74131135529907_2_alg».proof.Proof.ProjBody
import Idealize.ShloMosaic.Lib.Pipeline.Value
import Idealize.ShloMosaic.Lib.ValueIdx

set_option maxRecDepth 16384

noncomputable section

namespace Cert.KernelIdeal.Proj

open Cert.KernelIdeal Cert.KernelIdeal.Gen Cert.KernelIdeal.Body
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The projected array as one function of the input x and the weight w split into 48 groups of 64 rows. -/
def qkvArr (x : S2x2048x1024.Idx → Elt Ideal .f32) (w : S48x64x1024.Idx → Elt Ideal .f32) :
    S3x32x2048x64.Idx → Elt Ideal .bf16 := fun i =>
  ∑ d : Fin 1024,
    x (ix3 (⟨(i 1).val / 16, by have h1 : (i 1).val < 32 := (i 1).isLt; omega⟩ : Fin 2) (⟨(i 2).val, (i 2).isLt⟩ : Fin 2048) d)
      * w (ix3 (⟨(i 0).val * 16 + (i 1).val % 16, by have h0 : (i 0).val < 3 := (i 0).isLt; omega⟩ : Fin 48) (⟨(i 3).val, (i 3).isLt⟩ : Fin 64) d)

/-- The body's stored block at any index of the block. -/
theorem proj_body_at (x : Vec Ideal S1x512x1024 .f32) (w : Vec Ideal S1x64x1024 .f32) (j : S1x1x512x64.Idx) :
    k0_pay1 (F := Ideal) x w j
      = ∑ d : Fin 1024, x (ix3 (0 : Fin 1) (⟨(j 2).val, (j 2).isLt⟩ : Fin 512) d) * w (ix3 (0 : Fin 1) (⟨(j 3).val, (j 3).isLt⟩ : Fin 64) d) := by
  have hj : j = ix4 (0 : Fin 1) (0 : Fin 1) (⟨(j 2).val, (j 2).isLt⟩ : Fin 512) (⟨(j 3).val, (j 3).isLt⟩ : Fin 64) :=
    funext fun a => Fin.ext (by
      match a with
      | ⟨0, _⟩ => have h : (j 0).val < 1 := (j 0).isLt; show (j 0).val = 0; omega
      | ⟨1, _⟩ => have h : (j 1).val < 1 := (j 1).isLt; show (j 1).val = 0; omega
      | ⟨2, _⟩ => rfl
      | ⟨3, _⟩ => rfl)
  exact (congrArg (k0_pay1 (F := Ideal) x w) hj).trans (proj_body_apply x w _ _)

/-- The printed index maps in closed form, decided over the grid. Point number t is (b, si, g) with t = (b*4 + si)*48 + g:
    the input block is (b, si), the weight group g, the output block (g div 16, b*16 + g mod 16, si). -/
theorem idx_in : ∀ t : Fin cfg0.N,
    win0_0.index t (0 : Fin 3) = t.val / 192 ∧ win0_0.index t (1 : Fin 3) = t.val / 48 % 4 ∧ win0_0.index t (2 : Fin 3) = 0 :=
  (by decide +kernel : ∀ t : Fin grid0.N, _)
theorem idx_w : ∀ t : Fin cfg0.N,
    win0_1.index t (0 : Fin 3) = t.val % 48 ∧ win0_1.index t (1 : Fin 3) = 0 ∧ win0_1.index t (2 : Fin 3) = 0 :=
  (by decide +kernel : ∀ t : Fin grid0.N, _)
theorem idx_out : ∀ t : Fin cfg0.N,
    win0_2.index t (0 : Fin 4) = t.val % 48 / 16 ∧ win0_2.index t (1 : Fin 4) = t.val / 192 * 16 + t.val % 48 % 16
    ∧ win0_2.index t (2 : Fin 4) = t.val / 48 % 4 ∧ win0_2.index t (3 : Fin 4) = 0 :=
  (by decide +kernel : ∀ t : Fin grid0.N, _)

/-- What point t writes back is block t of the projected array. -/
theorem flushed_eq (c : Dev nD) (t : Fin cfg0.N) :
    (dat0 V c).flushed 2 t = ((cfg0.win 2).blk t).view.read (Elt Ideal) (qkvArr (V c main_arg0) (V c main_v0)) := by
  show (cfg0.win 2).cut (grid0.coords t) ((dat0 V c).after 2 t) = _
  rw [after0_2]
  unfold out0_2
  rw [View.canon_unit_zero hz4]
  simp only [View.ld_unit_zero (S := S1x512x1024) hz3, View.ld_unit_zero (S := S1x64x1024) hz3]
  obtain ⟨a0, a1, a2⟩ := idx_in t
  obtain ⟨w0, w1, w2⟩ := idx_w t
  obtain ⟨o0, o1, o2, o3⟩ := idx_out t
  funext j
  show k0_pay1 (F := Ideal) (iblk0 V c 0 t) (iblk0 V c 1 t) j = qkvArr (V c main_arg0) (V c main_v0) (((cfg0.win 2).blk t).view.emb j)
  refine (proj_body_at _ _ j).trans ?_
  unfold qkvArr
  refine Finset.sum_congr rfl fun d _ => ?_
  have hj0 : (j 0).val < 1 := (j 0).isLt
  have hj1 : (j 1).val < 1 := (j 1).isLt
  have hj2 : (j 2).val < 512 := (j 2).isLt
  have hj3 : (j 3).val < 64 := (j 3).isLt
  have ht : t.val < 384 := lt_of_lt_of_eq t.isLt N_0
  refine congrArg₂ (· * ·) ?_ ?_
  · show V c main_arg0 (((cfg0.win 0).blk t).view.emb (ix3 (0 : Fin 1) (⟨(j 2).val, (j 2).isLt⟩ : Fin 512) d)) = V c main_arg0 _
    refine congrArg (V c main_arg0) (funext fun a => Fin.ext ?_)
    match a with
    | ⟨0, _⟩ =>
      show win0_0.index t (0 : Fin 3) * 1 + 1 * 0 = (win0_2.index t (1 : Fin 4) * 1 + 1 * (j 1).val) / 16
      omega
    | ⟨1, _⟩ =>
      show win0_0.index t (1 : Fin 3) * 512 + 1 * (j 2).val = win0_2.index t (2 : Fin 4) * 512 + 1 * (j 2).val
      omega
    | ⟨2, _⟩ =>
      show win0_0.index t (2 : Fin 3) * 1024 + 1 * d.val = d.val
      omega
  · show V c main_v0 (((cfg0.win 1).blk t).view.emb (ix3 (0 : Fin 1) (⟨(j 3).val, (j 3).isLt⟩ : Fin 64) d)) = V c main_v0 _
    refine congrArg (V c main_v0) (funext fun a => Fin.ext ?_)
    match a with
    | ⟨0, _⟩ =>
      show win0_1.index t (0 : Fin 3) * 1 + 1 * 0 = (win0_2.index t (0 : Fin 4) * 1 + 1 * (j 0).val) * 16 + (win0_2.index t (1 : Fin 4) * 1 + 1 * (j 1).val) % 16
      omega
    | ⟨1, _⟩ =>
      show win0_1.index t (1 : Fin 3) * 64 + 1 * (j 3).val = win0_2.index t (3 : Fin 4) * 64 + 1 * (j 3).val
      omega
    | ⟨2, _⟩ =>
      show win0_1.index t (2 : Fin 3) * 1024 + 1 * d.val = d.val
      omega

/-- An index of the array is in point t's block iff each coordinate is in the block's range on its axis. -/
theorem mem_blk (t : Fin cfg0.N) (i : S3x32x2048x64.Idx) :
    i ∈ ((cfg0.win 2).blk t).view.set ↔ ∀ a : Fin 4, win0_2.index t a * S1x1x512x64.size a ≤ (i a).val ∧ (i a).val < win0_2.index t a * S1x1x512x64.size a + S1x1x512x64.size a := by
  show i ∈ ((View.whole main_v1).slice (win0_2.rect t)).set ↔ _
  rw [View.set_slice_whole, Rect.mem_set_unit]
  exact Iff.rfl

/-- Every index of the array is in some point's block: the point of batch (i 1) div 16, row block (i 2) div 512 and
    weight group (i 0)*16 + (i 1) mod 16. -/
theorem cover (i : S3x32x2048x64.Idx) :
    ∃ t : Fin cfg0.N, (cfg0.win 2).flush t = true ∧ i ∈ ((cfg0.win 2).blk t).view.set := by
  have h0 : (i 0).val < 3 := (i 0).isLt
  have h1 : (i 1).val < 32 := (i 1).isLt
  have h2 : (i 2).val < 2048 := (i 2).isLt
  have h3 : (i 3).val < 64 := (i 3).isLt
  have hN : cfg0.N = 384 := N_0
  obtain ⟨tv, htv⟩ : ∃ tv : ℕ, tv = ((i 1).val / 16 * 4 + (i 2).val / 512) * 48 + ((i 0).val * 16 + (i 1).val % 16) := ⟨_, rfl⟩
  have hlt : tv < cfg0.N := by rw [hN]; omega
  obtain ⟨o0, o1, o2, o3⟩ := idx_out ⟨tv, hlt⟩
  dsimp only at o0 o1 o2 o3
  refine ⟨⟨tv, hlt⟩, flush0_2 _, ?_⟩
  rw [mem_blk]
  intro a
  match a with
  | ⟨0, _⟩ =>
    show win0_2.index ⟨tv, hlt⟩ (0 : Fin 4) * 1 ≤ (i 0).val ∧ (i 0).val < win0_2.index ⟨tv, hlt⟩ (0 : Fin 4) * 1 + 1
    omega
  | ⟨1, _⟩ =>
    show win0_2.index ⟨tv, hlt⟩ (1 : Fin 4) * 1 ≤ (i 1).val ∧ (i 1).val < win0_2.index ⟨tv, hlt⟩ (1 : Fin 4) * 1 + 1
    omega
  | ⟨2, _⟩ =>
    show win0_2.index ⟨tv, hlt⟩ (2 : Fin 4) * 512 ≤ (i 2).val ∧ (i 2).val < win0_2.index ⟨tv, hlt⟩ (2 : Fin 4) * 512 + 512
    omega
  | ⟨3, _⟩ =>
    show win0_2.index ⟨tv, hlt⟩ (3 : Fin 4) * 64 ≤ (i 3).val ∧ (i 3).val < win0_2.index ⟨tv, hlt⟩ (3 : Fin 4) * 64 + 64
    omega

/-- The array after the region: the projected array of the input and the grouped weight as the region finds them. -/
theorem final (c : Dev nD) : (dat0 V c).arrAt 2 cfg0.N = qkvArr (V c main_arg0) (V c main_v0) :=
  (dat0 V c).arrAt_eq_of_cover 2 (qkvArr (V c main_arg0) (V c main_v0)) (fun t _ => flushed_eq V c t) cover

end Cert.KernelIdeal.Proj

end
-- ==== Proof.Spec.lean ====
/-
  The mathematics of one attention row over the extended reals, stated once for both programs.
  A row of scaled scores is the dot product of a query row with each key row, times the scale 1/8; the row's weights
  are the exponentials of the scores less the row's maximum (the maximum taken from -∞ upwards), each divided by their
  sum; the row's output at a feature is the weighted sum of the value rows at that feature.
-/
import Idealize.ShloMosaic.PureOps.Ideal
import Idealize.ShloMosaic.PureOps.Ideal.Laws

noncomputable section

namespace Cert.Attn

open Idealize.ShloMosaic

/-- The scale both programs multiply the scores by: the f32 word of 1/8. -/
abbrev scaleW : EReal := Ideal.ofBits .f32 0x3E000000#32
/-- The value both row maxima start from: the f32 word of -∞. -/
abbrev negInfW : EReal := Ideal.ofBits .f32 0xFF800000#32

/-- The scaled score of a query row against a key row, over the 64 features of a head. -/
def score (q k : Fin 64 → EReal) : EReal := (∑ e : Fin 64, q e * k e) * scaleW

/-- The maximum of a row of 2048 scores, from -∞. -/
def rowMax (s : Fin 2048 → EReal) : EReal := (Finset.univ : Finset (Fin 2048)).fold max negInfW s

/-- The softmax weight of position j in a row of scores. -/
def weight (s : Fin 2048 → EReal) (j : Fin 2048) : EReal :=
  Ideal.div (Ideal.exp (s j - rowMax s)) (∑ j' : Fin 2048, Ideal.exp (s j' - rowMax s))

/-- The row's output at one feature: the weighted sum of the values at that feature. -/
def attend (s v : Fin 2048 → EReal) : EReal := ∑ j : Fin 2048, weight s j * v j

end Cert.Attn

end
-- ==== Proof.AttnBody.lean ====
/-
  The attention body at one output element, over the extended reals. From a block of 512 query rows and the 2048 key
  and value rows of one head, element (r, d) of the body's result is the attention row of query row r read at feature d:
  the scores are the matrix product of the query block with the transposed keys, scaled; the maximum and the sum run
  along the key axis; the last matrix product contracts the weights with the values.
-/
import proofs.«102044_j74131135529907_2_alg».proof.Proof.Gen.KernelIdeal.Skeleton
import proofs.«102044_j74131135529907_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Cert.Attn Idealize.ShloMosaic Idealize.ShloMosaic.ValueIdx

/-! ## The keepdims column forms of a shape cast and a broadcast -/

/-- An [a] array cast to [a, 1] reads, at (i, u), the operand at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A per-row value spread over the row: the [a] vector cast to a column and broadcast to [a, b] reads, at (p, c), the vector at p. -/
theorem column_apply {α : Type} {a b : ℕ} (x : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

/-! ## The two matrix products at an index -/

/-- The operand coordinates of the first product (rows by rows over the feature axis) at an output index and a
    contraction index. -/
theorem qk_lhs_0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem qk_lhs_1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem qk_rhs_0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem qk_rhs_1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- The product of a [512, 64] block with a [2048, 64] block over the feature axis, into zero, at (r, j): the dot
    product of row r of the first with row j of the second. -/
theorem matmul_qk_apply (a : FVec Ideal S512x64 .bf16) (b : FVec Ideal S2048x64 .bf16) (r : Fin 512) (j : Fin 2048) :
    matmul dot_S512x64_S2048x64_S512x2048_1_1_0_0_n_n none a b (constant (F := Ideal) S512x2048 .f32 0x00000000#32) (ix2 r j)
      = ∑ e : Fin 64, a (ix2 r e) * b (ix2 j e) := by
  simp only [matmul]
  rw [Ideal.matmul_constant_zero_apply, ← Equiv.sum_comp (contrEquiv1 dot_S512x64_S2048x64_S512x2048_1_1_0_0_n_n 64 rfl rfl).symm]
  refine Finset.sum_congr rfl fun e _ => ?_
  have he := contrEquiv1_symm_val dot_S512x64_S2048x64_S512x2048_1_1_0_0_n_n 64 rfl rfl e
  have el : dot_S512x64_S2048x64_S512x2048_1_1_0_0_n_n.lhsIdx (ix2 r j) ((contrEquiv1 dot_S512x64_S2048x64_S512x2048_1_1_0_0_n_n 64 rfl rfl).symm e) = ix2 r e := funext fun ax => Fin.ext (by
    match ax with
    | ⟨0, _⟩ => exact qk_lhs_0 _ _
    | ⟨1, _⟩ => exact (qk_lhs_1 _ _).trans he)
  have er : dot_S512x64_S2048x64_S512x2048_1_1_0_0_n_n.rhsIdx (ix2 r j) ((contrEquiv1 dot_S512x64_S2048x64_S512x2048_1_1_0_0_n_n 64 rfl rfl).symm e) = ix2 j e := funext fun ax => Fin.ext (by
    match ax with
    | ⟨0, _⟩ => exact qk_rhs_0 _ _
    | ⟨1, _⟩ => exact (qk_rhs_1 _ _).trans he)
  rw [el, er]

/-- The operand coordinates of the second product (rows by columns over the key axis). -/
theorem pv_lhs_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem pv_lhs_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem pv_rhs_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem pv_rhs_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The product of a [512, 2048] block with a [2048, 64] block over the key axis, into zero, at (r, d): the sum over
    the keys of the first at (r, j) times the second at (j, d). -/
theorem matmul_pv_apply (a : FVec Ideal S512x2048 .bf16) (b : FVec Ideal S2048x64 .bf16) (r : Fin 512) (d : Fin 64) :
    matmul dot_S512x2048_S2048x64_S512x64_1_0_0_1_n_n none a b (constant (F := Ideal) S512x64 .f32 0x00000000#32) (ix2 r d)
      = ∑ j : Fin 2048, a (ix2 r j) * b (ix2 j d) := by
  simp only [matmul]
  rw [Ideal.matmul_constant_zero_apply, ← Equiv.sum_comp (contrEquiv1 dot_S512x2048_S2048x64_S512x64_1_0_0_1_n_n 2048 rfl rfl).symm]
  refine Finset.sum_congr rfl fun j _ => ?_
  have hj := contrEquiv1_symm_val dot_S512x2048_S2048x64_S512x64_1_0_0_1_n_n 2048 rfl rfl j
  have el : dot_S512x2048_S2048x64_S512x64_1_0_0_1_n_n.lhsIdx (ix2 r d) ((contrEquiv1 dot_S512x2048_S2048x64_S512x64_1_0_0_1_n_n 2048 rfl rfl).symm j) = ix2 r j := funext fun ax => Fin.ext (by
    match ax with
    | ⟨0, _⟩ => exact pv_lhs_0 _ _
    | ⟨1, _⟩ => exact (pv_lhs_1 _ _).trans hj)
  have er : dot_S512x2048_S2048x64_S512x64_1_0_0_1_n_n.rhsIdx (ix2 r d) ((contrEquiv1 dot_S512x2048_S2048x64_S512x64_1_0_0_1_n_n 2048 rfl rfl).symm j) = ix2 j d := funext fun ax => Fin.ext (by
    match ax with
    | ⟨0, _⟩ => exact (pv_rhs_0 _ _).trans hj
    | ⟨1, _⟩ => exact pv_rhs_1 _ _)
  rw [el, er]
/-! ## The two row reductions at an index -/

/-- The maximum over axis 1 of a [512, 2048] block from the word of minus infinity, at r: the fold of max over row r. -/
theorem rowMax_apply (src : FVec Ideal S512x2048 .f32) (h : S512x2048.Reduces [1] S512) (hφ : FKind.Formats .f32)
    (hacc : (0xFF800000#32 : BitVec 32) = FKind.maximumf.neutral .f32 hφ) (r : Fin 512) :
    multiReduction (F := Ideal) .maximumf [1] S512 src 0xFF800000#32 h hφ hacc (ix1 r)
      = (Finset.univ : Finset (Fin 2048)).fold max negInfW (fun j => src (ix2 r j)) := by
  refine (Ideal.multiReduction_maximumf_single src _ h hφ hacc (ix1 r)).trans ?_
  have hl : (src ∘ h.lift (ix1 r)) = fun j : Fin 2048 => src (ix2 r j) :=
    funext fun j => congrArg src (funext fun ax => Fin.ext (by
      match ax with
      | ⟨0, _⟩ => rfl
      | ⟨1, _⟩ => rfl))
  rw [hl]
  rfl

/-- The sum over axis 1 of a [512, 2048] block, at r: the sum of row r. -/
theorem rowSum_apply (src : FVec Ideal S512x2048 .f32) (h : S512x2048.Reduces [1] S512) (hφ : FKind.Formats .f32)
    (hacc : (0x00000000#32 : BitVec 32) = FKind.add.neutral .f32 hφ) (r : Fin 512) :
    multiReduction (F := Ideal) .add [1] S512 src 0x00000000#32 h hφ hacc (ix1 r)
      = ∑ j : Fin 2048, src (ix2 r j) := by
  refine (Ideal.multiReduction_add_single src _ h hφ hacc (ix1 r)).trans ?_
  refine Finset.sum_congr rfl fun j _ => congrArg src (funext fun ax => Fin.ext (by
    match ax with
    | ⟨0, _⟩ => rfl
    | ⟨1, _⟩ => rfl))

/-! ## The stages of the body, each read at an index -/

/-- The block of scaled scores: the query block times the transposed key block, times the scale. -/
def scores (q : Vec Ideal S1x512x64 .bf16) (k : Vec Ideal S1x2048x64 .bf16) : FVec Ideal S512x2048 .f32 :=
  have v1 : FVec Ideal S512x64 .bf16 := shapeCast S512x64 q shapeCasts_S1x512x64_S512x64
  have v3 : FVec Ideal S2048x64 .bf16 := shapeCast S2048x64 k shapeCasts_S1x2048x64_S2048x64
  mulf (matmul dot_S512x64_S2048x64_S512x2048_1_1_0_0_n_n none v1 v3 (constant (F := Ideal) S512x2048 .f32 0x00000000#32))
    (broadcast S512x2048 (Scalar.ofBits (F := Ideal) .f32 0x3E000000#32))

/-- The scores at (r, j): the scaled dot product of query row r with key row j. -/
theorem scores_apply (q : Vec Ideal S1x512x64 .bf16) (k : Vec Ideal S1x2048x64 .bf16) (r : Fin 512) (j : Fin 2048) :
    scores q k (ix2 r j) = score (fun e => q (ix3 (0 : Fin 1) r e)) (fun e => k (ix3 (0 : Fin 1) j e)) := by
  unfold scores score
  rw [mulf_apply, broadcast_apply, matmul_qk_apply]
  refine congrArg (· * scaleW) (Finset.sum_congr rfl fun e _ => ?_)
  rw [shapeCast_1ab_ab_apply, shapeCast_1ab_ab_apply]

/-- The exponentials of a block less its row maxima (each maximum taken from minus infinity, spread back over its row). -/
def expo (s : FVec Ideal S512x2048 .f32) : FVec Ideal S512x2048 .f32 :=
  have v9 : FVec Ideal S512 .f32 := multiReduction (F := Ideal) .maximumf [1] S512 s 0xFF800000#32 reduces_S512x2048_S512 (.inl rfl) rfl
  have v10 : FVec Ideal S512x1 .f32 := shapeCast S512x1 v9 shapeCasts_S512_S512x1
  have v11 : FVec Ideal S512x2048 .f32 := broadcastTo S512x2048 v10 broadcasts_S512x1_S512x2048
  exp (subf s v11)

/-- At (r, j): the exponential of the element less the maximum of row r. -/
theorem expo_apply (s : FVec Ideal S512x2048 .f32) (r : Fin 512) (j : Fin 2048) :
    expo s (ix2 r j) = Ideal.exp (s (ix2 r j) - rowMax (fun j' => s (ix2 r j'))) := by
  unfold expo rowMax
  show Ideal.exp (s (ix2 r j) - broadcastTo S512x2048 (shapeCast S512x1 _ shapeCasts_S512_S512x1) broadcasts_S512x1_S512x2048 (ix2 r j)) = _
  rw [column_apply]
  exact congrArg (fun m => Ideal.exp (s (ix2 r j) - m)) (rowMax_apply s _ _ _ r)

/-- A block with each element divided by its row's sum (the sum spread back over its row). -/
def normed (p : FVec Ideal S512x2048 .f32) : FVec Ideal S512x2048 .bf16 :=
  have v14 : FVec Ideal S512 .f32 := multiReduction (F := Ideal) .add [1] S512 p 0x00000000#32 reduces_S512x2048_S512 (.inl rfl) rfl
  have v15 : FVec Ideal S512x1 .f32 := shapeCast S512x1 v14 shapeCasts_S512_S512x1
  have v16 : FVec Ideal S512x2048 .f32 := broadcastTo S512x2048 v15 broadcasts_S512x1_S512x2048
  truncf .bf16 (divf p v16) bitsLt_bf16_f32

/-- At (r, j): the element over the sum of row r. -/
theorem normed_apply (p : FVec Ideal S512x2048 .f32) (r : Fin 512) (j : Fin 2048) :
    normed p (ix2 r j) = Ideal.div (p (ix2 r j)) (∑ j' : Fin 2048, p (ix2 r j')) := by
  unfold normed
  show Ideal.div (p (ix2 r j)) (broadcastTo S512x2048 (shapeCast S512x1 _ shapeCasts_S512_S512x1) broadcasts_S512x1_S512x2048 (ix2 r j)) = _
  rw [column_apply]
  exact congrArg (fun m => Ideal.div (p (ix2 r j)) m) (rowSum_apply p _ _ _ r)

/-- The stored block is the weights (normalized exponentials of the scores) times the value block, with the unit axis put back. -/
theorem k1_pay1_eq (q : Vec Ideal S1x512x64 .bf16) (k v : Vec Ideal S1x2048x64 .bf16) :
    k1_pay1 (F := Ideal) q k v
      = shapeCast S1x512x64
          (truncf .bf16 (matmul dot_S512x2048_S2048x64_S512x64_1_0_0_1_n_n none (normed (expo (scores q k)))
            (shapeCast S2048x64 v shapeCasts_S1x2048x64_S2048x64 : FVec Ideal S2048x64 .bf16)
            (constant (F := Ideal) S512x64 .f32 0x00000000#32)) bitsLt_bf16_f32 : FVec Ideal S512x64 .bf16)
          shapeCasts_S512x64_S1x512x64 := rfl

/-- Element (r, d) of the attention body's stored block. -/
theorem attn_body_apply (q : Vec Ideal S1x512x64 .bf16) (k v : Vec Ideal S1x2048x64 .bf16) (r : Fin 512) (d : Fin 64) :
    k1_pay1 (F := Ideal) q k v (ix3 (0 : Fin 1) r d)
      = attend (fun j => score (fun e => q (ix3 (0 : Fin 1) r e)) (fun e => k (ix3 (0 : Fin 1) j e)))
          (fun j => v (ix3 (0 : Fin 1) j d)) := by
  rw [k1_pay1_eq, shapeCast_ab_1ab_apply, truncf_apply, matmul_pv_apply]
  unfold attend weight
  refine Finset.sum_congr rfl fun j _ => ?_
  rw [shapeCast_1ab_ab_apply, normed_apply, expo_apply]
  simp only [expo_apply, scores_apply]

end Cert.KernelIdeal.Body

end
-- ==== Proof.Region1.lean ====
/-
  The second region: attention per head. Grid point (bh, qi) takes query rows qi*512 .. qi*512+511 of head bh and all
  2048 key and value rows of that head, and writes the 512 x 64 block of attention outputs to block (bh, qi) of the
  context array. So after the run the context array holds, at (bh, s, d), the attention row of query row s of head bh
  read at feature d: every point writes its own block and the blocks tile the array.
-/
import proofs.«102044_j74131135529907_2_alg».proof.Proof.Gen.KernelIdeal.Frame
import proofs.«102044_j74131135529907_2_alg».proof.Proof.AttnBody
import proofs.«102044_j74131135529907_2_alg».proof.Proof.Spec
import Idealize.ShloMosaic.Lib.Pipeline.Value
import Idealize.ShloMosaic.Lib.ValueIdx

set_option maxRecDepth 16384

noncomputable section

namespace Cert.KernelIdeal.Ctx

open Cert.KernelIdeal Cert.KernelIdeal.Gen Cert.KernelIdeal.Body Cert.Attn
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl

/-- The context array as one function of the query, key and value arrays. -/
def ctxArr (q k v : S32x2048x64.Idx → Elt Ideal .bf16) : S32x2048x64.Idx → Elt Ideal .bf16 := fun i =>
  attend
    (fun j => score (fun e => q (ix3 (⟨(i 0).val, (i 0).isLt⟩ : Fin 32) (⟨(i 1).val, (i 1).isLt⟩ : Fin 2048) e))
                    (fun e => k (ix3 (⟨(i 0).val, (i 0).isLt⟩ : Fin 32) j e)))
    (fun j => v (ix3 (⟨(i 0).val, (i 0).isLt⟩ : Fin 32) j (⟨(i 2).val, (i 2).isLt⟩ : Fin 64)))

/-- The body's stored block at any index of the block. -/
theorem attn_body_at (q : Vec Ideal S1x512x64 .bf16) (k v : Vec Ideal S1x2048x64 .bf16) (j : S1x512x64.Idx) :
    k1_pay1 (F := Ideal) q k v j
      = attend (fun jj => score (fun e => q (ix3 (0 : Fin 1) (⟨(j 1).val, (j 1).isLt⟩ : Fin 512) e)) (fun e => k (ix3 (0 : Fin 1) jj e)))
          (fun jj => v (ix3 (0 : Fin 1) jj (⟨(j 2).val, (j 2).isLt⟩ : Fin 64))) := by
  have hj : j = ix3 (0 : Fin 1) (⟨(j 1).val, (j 1).isLt⟩ : Fin 512) (⟨(j 2).val, (j 2).isLt⟩ : Fin 64) :=
    funext fun a => Fin.ext (by
      match a with
      | ⟨0, _⟩ => have h : (j 0).val < 1 := (j 0).isLt; show (j 0).val = 0; omega
      | ⟨1, _⟩ => rfl
      | ⟨2, _⟩ => rfl)
  exact (congrArg (k1_pay1 (F := Ideal) q k v) hj).trans (attn_body_apply q k v _ _)

/-- The printed index maps in closed form, decided over the grid. Point number t is (bh, qi) with t = bh*4 + qi: the
    query block and the output block are (bh, qi), the key block and the value block are head bh whole. -/
theorem idx_q : ∀ t : Fin cfg1.N,
    win1_0.index t (0 : Fin 3) = t.val / 4 ∧ win1_0.index t (1 : Fin 3) = t.val % 4 ∧ win1_0.index t (2 : Fin 3) = 0 :=
  (by decide +kernel : ∀ t : Fin grid1.N, _)
theorem idx_k : ∀ t : Fin cfg1.N,
    win1_1.index t (0 : Fin 3) = t.val / 4 ∧ win1_1.index t (1 : Fin 3) = 0 ∧ win1_1.index t (2 : Fin 3) = 0 :=
  (by decide +kernel : ∀ t : Fin grid1.N, _)
theorem idx_v : ∀ t : Fin cfg1.N,
    win1_2.index t (0 : Fin 3) = t.val / 4 ∧ win1_2.index t (1 : Fin 3) = 0 ∧ win1_2.index t (2 : Fin 3) = 0 :=
  (by decide +kernel : ∀ t : Fin grid1.N, _)
theorem idx_out : ∀ t : Fin cfg1.N,
    win1_3.index t (0 : Fin 3) = t.val / 4 ∧ win1_3.index t (1 : Fin 3) = t.val % 4 ∧ win1_3.index t (2 : Fin 3) = 0 :=
  (by decide +kernel : ∀ t : Fin grid1.N, _)

/-- What point t writes back is block t of the context array. -/
theorem flushed_eq (c : Dev nD) (t : Fin cfg1.N) :
    (dat1 V c).flushed 3 t = ((cfg1.win 3).blk t).view.read (Elt Ideal) (ctxArr (V c main_v3) (V c main_v5) (V c main_v7)) := by
  show (cfg1.win 3).cut (grid1.coords t) ((dat1 V c).after 3 t) = _
  rw [after1_3]
  unfold out1_3
  rw [View.canon_unit_zero hz3]
  simp only [View.ld_unit_zero (S := S1x512x64) hz3, View.ld_unit_zero (S := S1x2048x64) hz3]
  obtain ⟨a0, a1, a2⟩ := idx_q t
  obtain ⟨k0, k1, k2⟩ := idx_k t
  obtain ⟨v0, v1, v2⟩ := idx_v t
  obtain ⟨o0, o1, o2⟩ := idx_out t
  funext j
  show k1_pay1 (F := Ideal) (iblk1 V c 0 t) (iblk1 V c 1 t) (iblk1 V c 2 t) j = ctxArr (V c main_v3) (V c main_v5) (V c main_v7) (((cfg1.win 3).blk t).view.emb j)
  refine (attn_body_at _ _ _ j).trans ?_
  unfold ctxArr
  have hj0 : (j 0).val < 1 := (j 0).isLt
  have hj1 : (j 1).val < 512 := (j 1).isLt
  have hj2 : (j 2).val < 64 := (j 2).isLt
  have ht : t.val < 128 := lt_of_lt_of_eq t.isLt N_1
  refine congrArg₂ attend (funext fun jj => congrArg₂ score (funext fun e => ?_) (funext fun e => ?_)) (funext fun jj => ?_)
  · show V c main_v3 (((cfg1.win 0).blk t).view.emb (ix3 (0 : Fin 1) (⟨(j 1).val, (j 1).isLt⟩ : Fin 512) e)) = V c main_v3 _
    refine congrArg (V c main_v3) (funext fun a => Fin.ext ?_)
    match a with
    | ⟨0, _⟩ =>
      show win1_0.index t (0 : Fin 3) * 1 + 1 * 0 = win1_3.index t (0 : Fin 3) * 1 + 1 * (j 0).val
      omega
    | ⟨1, _⟩ =>
      show win1_0.index t (1 : Fin 3) * 512 + 1 * (j 1).val = win1_3.index t (1 : Fin 3) * 512 + 1 * (j 1).val
      omega
    | ⟨2, _⟩ =>
      show win1_0.index t (2 : Fin 3) * 64 + 1 * e.val = e.val
      omega
  · show V c main_v5 (((cfg1.win 1).blk t).view.emb (ix3 (0 : Fin 1) jj e)) = V c main_v5 _
    refine congrArg (V c main_v5) (funext fun a => Fin.ext ?_)
    match a with
    | ⟨0, _⟩ =>
      show win1_1.index t (0 : Fin 3) * 1 + 1 * 0 = win1_3.index t (0 : Fin 3) * 1 + 1 * (j 0).val
      omega
    | ⟨1, _⟩ =>
      show win1_1.index t (1 : Fin 3) * 2048 + 1 * jj.val = jj.val
      omega
    | ⟨2, _⟩ =>
      show win1_1.index t (2 : Fin 3) * 64 + 1 * e.val = e.val
      omega
  · show V c main_v7 (((cfg1.win 2).blk t).view.emb (ix3 (0 : Fin 1) jj (⟨(j 2).val, (j 2).isLt⟩ : Fin 64))) = V c main_v7 _
    refine congrArg (V c main_v7) (funext fun a => Fin.ext ?_)
    match a with
    | ⟨0, _⟩ =>
      show win1_2.index t (0 : Fin 3) * 1 + 1 * 0 = win1_3.index t (0 : Fin 3) * 1 + 1 * (j 0).val
      omega
    | ⟨1, _⟩ =>
      show win1_2.index t (1 : Fin 3) * 2048 + 1 * jj.val = jj.val
      omega
    | ⟨2, _⟩ =>
      show win1_2.index t (2 : Fin 3) * 64 + 1 * (j 2).val = win1_3.index t (2 : Fin 3) * 64 + 1 * (j 2).val
      omega

/-- An index of the array is in point t's block iff each coordinate is in the block's range on its axis. -/
theorem mem_blk (t : Fin cfg1.N) (i : S32x2048x64.Idx) :
    i ∈ ((cfg1.win 3).blk t).view.set ↔ ∀ a : Fin 3, win1_3.index t a * S1x512x64.size a ≤ (i a).val ∧ (i a).val < win1_3.index t a * S1x512x64.size a + S1x512x64.size a := by
  show i ∈ ((View.whole main_v8).slice (win1_3.rect t)).set ↔ _
  rw [View.set_slice_whole, Rect.mem_set_unit]
  exact Iff.rfl

/-- Every index of the array is in some point's block: the point of head (i 0) and row block (i 1) div 512. -/
theorem cover (i : S32x2048x64.Idx) :
    ∃ t : Fin cfg1.N, (cfg1.win 3).flush t = true ∧ i ∈ ((cfg1.win 3).blk t).view.set := by
  have h0 : (i 0).val < 32 := (i 0).isLt
  have h1 : (i 1).val < 2048 := (i 1).isLt
  have h2 : (i 2).val < 64 := (i 2).isLt
  have hN : cfg1.N = 128 := N_1
  obtain ⟨tv, htv⟩ : ∃ tv : ℕ, tv = (i 0).val * 4 + (i 1).val / 512 := ⟨_, rfl⟩
  have hlt : tv < cfg1.N := by rw [hN]; omega
  obtain ⟨o0, o1, o2⟩ := idx_out ⟨tv, hlt⟩
  dsimp only at o0 o1 o2
  refine ⟨⟨tv, hlt⟩, flush1_3 _, ?_⟩
  rw [mem_blk]
  intro a
  match a with
  | ⟨0, _⟩ =>
    show win1_3.index ⟨tv, hlt⟩ (0 : Fin 3) * 1 ≤ (i 0).val ∧ (i 0).val < win1_3.index ⟨tv, hlt⟩ (0 : Fin 3) * 1 + 1
    omega
  | ⟨1, _⟩ =>
    show win1_3.index ⟨tv, hlt⟩ (1 : Fin 3) * 512 ≤ (i 1).val ∧ (i 1).val < win1_3.index ⟨tv, hlt⟩ (1 : Fin 3) * 512 + 512
    omega
  | ⟨2, _⟩ =>
    show win1_3.index ⟨tv, hlt⟩ (2 : Fin 3) * 64 ≤ (i 2).val ∧ (i 2).val < win1_3.index ⟨tv, hlt⟩ (2 : Fin 3) * 64 + 64
    omega

/-- The array after the region: the context array of the query, key and value arrays as the region finds them. -/
theorem final (c : Dev nD) : (dat1 V c).arrAt 3 cfg1.N = ctxArr (V c main_v3) (V c main_v5) (V c main_v7) := by
  exact (dat1 V c).arrAt_eq_of_cover 3 (ctxArr (V c main_v3) (V c main_v5) (V c main_v7)) (fun t _ => flushed_eq V c t) cover

end Cert.KernelIdeal.Ctx

end
-- ==== Proof.OutCases.lean ====
/-
  The output projection's body, case by case, read as values. At the first head of a block the body stores zeros,
  reads them back, and leaves the zeros plus the head's product; at every later head it leaves what the block held plus
  the head's product. In both cases the block is written whole by its last store, so what the staging buffer holds is that
  store's value.
-/
import proofs.«102044_j74131135529907_2_alg».proof.Proof.Gen.KernelIdeal.Frame
import Idealize.ShloMosaic.Lib.Pipeline.Value
import Idealize.ShloMosaic.Lib.Tactic

set_option maxRecDepth 16384

noncomputable section

namespace Cert.KernelIdeal.OutCases

open Cert.KernelIdeal Cert.KernelIdeal.Gen
open Idealize.ShloMosaic Idealize.ShloMosaic.TcCoe Idealize.SL.Sem

variable {F : FTy → Type} [FloatOps F]

theorem hz3 : (![0, 0, 0] : Fin 3 → Nat) = fun _ => 0 := funext fun a => by fin_cases a <;> rfl

/-- A later head: the block's contents plus the head's product. -/
theorem out_B (c : Dev nD) (i : grid2.Coords) (a3 : Memref sig .tc .vmem S1x512x64 .bf16) (h3 : a3.IsWhole)
    (a4 : Memref sig .tc .vmem S1x64x1024 .f32) (h4 : a4.IsWhole) (a5 : Memref sig .tc .vmem S1x512x1024 .f32) (h5 : a5.IsWhole)
    (hc : ¬cond2_0 i) (x0 : Vec F S1x512x64 .bf16) (x1 : Vec F S1x64x1024 .f32) (xo : Vec F S1x512x1024 .f32) :
    out2_B_2 c i a3 h3 a4 h4 a5 h5 hc x0 x1 xo = k2_pay2 x0 x1 xo := by
  -- The case's one store covers the block, so the buffer holds that store's value: the payload of the three loads.
  unfold out2_B_2
  rw [View.read_writes_eq_canon _ _ _ (cover2_B_2 c i a3 h3 a4 h4 a5 h5 hc x0 x1 xo)]
  unfold kernelRun2_B
  dsimp only
  rw [View.canon_unit_zero hz3]
  -- Each load is of a whole buffer at zero offsets, so it reads the buffer's contents.
  simp only [View.readAt_eq_ld, h3.read_unread, h4.read_unread, h5.read_unread, View.ld_unit_zero (S := S1x512x64) hz3,
    View.ld_unit_zero (S := S1x64x1024) hz3, View.ld_unit_zero (S := S1x512x1024) hz3]

/-- The first head: the zeros plus the head's product. -/
theorem out_A (c : Dev nD) (i : grid2.Coords) (a3 : Memref sig .tc .vmem S1x512x64 .bf16) (h3 : a3.IsWhole)
    (a4 : Memref sig .tc .vmem S1x64x1024 .f32) (h4 : a4.IsWhole) (a5 : Memref sig .tc .vmem S1x512x1024 .f32) (h5 : a5.IsWhole)
    (hc : cond2_0 i) (x0 : Vec F S1x512x64 .bf16) (x1 : Vec F S1x64x1024 .f32) :
    out2_A_2 c i a3 h3 a4 h4 a5 h5 hc x0 x1 = k2_pay2 x0 x1 (k2_pay1 (F := F)) := by
  -- The last of the case's two stores covers the block, so the buffer holds its value; the accumulator it loads is
  -- what the first store, of the zeros, left: a whole-block load of a whole-block store reads the stored value.
  unfold out2_A_2
  rw [View.read_writes_eq_canon _ _ _ (cover2_A_2 c i a3 h3 a4 h4 a5 h5 hc x0 x1)]
  unfold kernelRun2_A
  dsimp only
  sl_unfold_words
  rw [View.canon_cons_unit_zero (S := S1x512x1024) hz3, View.readCov_unit_zero (S := S1x512x1024) _ hz3]
  simp only [View.readAt_eq_ld, h3.read_unread, h4.read_unread, View.ld_unit_zero (S := S1x512x64) hz3,
    View.ld_unit_zero (S := S1x64x1024) hz3]

end Cert.KernelIdeal.OutCases

end
-- ==== Proof.Region2Acc.lean ====
/-
  The third region's accumulation in closed form. Its output block stays in its staging buffer over the 16 heads of a
  run of points: the first head's point leaves zero plus its product, each later one what the block held plus its
  product. So after point t the buffer holds, at (r, e), zero plus the sum of the products of the heads of t's run up to
  t: the fold over the run, unrolled at an index.
-/
import proofs.«102044_j74131135529907_2_alg».proof.Proof.Gen.KernelIdeal.Frame
import proofs.«102044_j74131135529907_2_alg».proof.Proof.ProjBody
import proofs.«102044_j74131135529907_2_alg».proof.Proof.OutCases
import Idealize.ShloMosaic.Lib.Pipeline.Value
import Idealize.ShloMosaic.Lib.ValueIdx

set_option maxRecDepth 16384

noncomputable section

namespace Cert.KernelIdeal.Out

open Cert.KernelIdeal Cert.KernelIdeal.Gen Cert.KernelIdeal.Body
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Point n's context block and weight block, as the region finds them. -/
def ctxBlk (c : Dev nD) (n : ℕ) (h : n < cfg2.N) : Vec Ideal S1x512x64 .bf16 := iblk2 V c 0 ⟨n, h⟩
def wBlk (c : Dev nD) (n : ℕ) (h : n < cfg2.N) : Vec Ideal S1x64x1024 .f32 := iblk2 V c 1 ⟨n, h⟩

/-- The product point n adds, at index i of the output block: row (i 1) of its context block against column (i 2) of its
    weight block (zero past the grid, where it is never used). -/
def headTerm (c : Dev nD) (n : ℕ) (i : S1x512x1024.Idx) : EReal :=
  if h : n < cfg2.N then
    ∑ d : Fin 64, ctxBlk V c n h (ix3 (0 : Fin 1) (⟨(i 1).val, (i 1).isLt⟩ : Fin 512) d)
      * wBlk V c n h (ix3 (0 : Fin 1) d (⟨(i 2).val, (i 2).isLt⟩ : Fin 1024))
  else 0

/-- The body's stored block at any index of the block: what the block held there plus row (i 1) of the context block
    against column (i 2) of the weight block. The block's leading axis has size one, so every index is (0, i 1, i 2). -/
theorem out_body_at (ctx : Vec Ideal S1x512x64 .bf16) (w : Vec Ideal S1x64x1024 .f32) (acc : Vec Ideal S1x512x1024 .f32)
    (i : S1x512x1024.Idx) :
    k2_pay2 (F := Ideal) ctx w acc i
      = acc i + ∑ d : Fin 64, ctx (ix3 (0 : Fin 1) (⟨(i 1).val, (i 1).isLt⟩ : Fin 512) d)
          * w (ix3 (0 : Fin 1) d (⟨(i 2).val, (i 2).isLt⟩ : Fin 1024)) := by
  have hi : i = ix3 (0 : Fin 1) (⟨(i 1).val, (i 1).isLt⟩ : Fin 512) (⟨(i 2).val, (i 2).isLt⟩ : Fin 1024) :=
    funext fun a => Fin.ext (by
      match a with
      | ⟨0, _⟩ => have h : (i 0).val < 1 := (i 0).isLt; show (i 0).val = 0; omega
      | ⟨1, _⟩ => rfl
      | ⟨2, _⟩ => rfl)
  refine (congrArg (k2_pay2 (F := Ideal) ctx w acc) hi).trans ((out_body_apply ctx w acc _ _).trans ?_)
  exact congrArg (· + _) (congrArg acc hi.symm)

/-- Inside the grid the head's product is the sum itself. -/
theorem headTerm_of_lt (c : Dev nD) (n : ℕ) (h : n < cfg2.N) (i : S1x512x1024.Idx) :
    headTerm V c n i = ∑ d : Fin 64, ctxBlk V c n h (ix3 (0 : Fin 1) (⟨(i 1).val, (i 1).isLt⟩ : Fin 512) d)
      * wBlk V c n h (ix3 (0 : Fin 1) d (⟨(i 2).val, (i 2).isLt⟩ : Fin 1024)) := by
  unfold headTerm
  rw [dif_pos h]

/-- What the output's staging buffer holds after point t, at an index: zero plus the products of the heads of t's run
    of 16 points, from the run's first point up to t. -/
theorem outsAt_closed (c : Dev nD) (t : Fin cfg2.N) (i : S1x512x1024.Idx) :
    outsAt2 V c t.val t.isLt i = 0 + ∑ s ∈ Finset.range (t.val % 16 + 1), headTerm V c (16 * (t.val / 16) + s) i := by
  have hb : 16 * (t.val / 16) + t.val % 16 < cfg2.N := by rw [Nat.div_add_mod]; exact t.isLt
  -- The buffer's contents after point t are the fold over t's run: the first point of a run leaves the body's value
  -- over the zero block, every later point the body's value over what the point before left.
  have h1 := Pipeline.eq_accAt_of_mod (N := cfg2.N) (fun n h => outsAt2 V c n h) 16
    (fun n h => k2_pay2 (F := Ideal) (ctxBlk V c n h) (wBlk V c n h) (k2_pay1 (F := Ideal)))
    (fun n h acc => k2_pay2 (F := Ideal) (ctxBlk V c n h) (wBlk V c n h) acc)
    (fun n h h0 => (outsAt2_A V c ⟨n, h⟩ h0).trans (OutCases.out_A ..))
    (fun n h hne => (outsAt2_B V c ⟨n + 1, h⟩ hne).trans (OutCases.out_B ..))
    (by decide) t.val t.isLt hb
  refine (congrFun h1 i).trans ?_
  -- At an index the fold is zero plus the sum of the products: the reset adds the first to zero, each step adds its own.
  exact Pipeline.accAt_add_apply (ι := S1x512x1024.Idx) (β := EReal) _ _ (fun _ => 0) (fun n j => headTerm V c n j)
    (16 * (t.val / 16)) (t.val % 16)
    (fun h j => by rw [out_body_at, zero_body_apply, headTerm_of_lt V c _ h])
    (fun n h acc j _ _ => by rw [out_body_at, headTerm_of_lt V c _ h])
    (t.val % 16) le_rfl hb i

end Cert.KernelIdeal.Out

end
-- ==== Proof.Region2.lean ====
/-
  The third region: head merge and output projection. Grid point (b, si, h) takes context rows si*512 .. si*512+511 of
  head b*16 + h and the 64 rows of group h of the regrouped output weight, and adds their 512 x 1024 product into block
  (b, si) of the result, which stays in its staging buffer over the 16 heads and is written back at the last. So after
  the run the result holds, at (b, s, e), zero plus the sum over the 16 heads of the products of context row
  (b*16 + h, s) with column e of weight group h: the last point of every run writes its block, and the blocks tile
  the array.
-/
import proofs.«102044_j74131135529907_2_alg».proof.Proof.Gen.KernelIdeal.Frame
import proofs.«102044_j74131135529907_2_alg».proof.Proof.Region2Acc
import Idealize.ShloMosaic.Lib.Pipeline.Value
import Idealize.ShloMosaic.Lib.ValueIdx

set_option maxRecDepth 16384

noncomputable section

namespace Cert.KernelIdeal.Out

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps in closed form, decided over the grid. Point number t is (b, si, h) with t = (b*4 + si)*16 + h:
    the context block is (b*16 + h, si), the weight group h, the output block (b, si). -/
theorem idx_ctx : ∀ t : Fin cfg2.N,
    win2_0.index t (0 : Fin 3) = t.val / 64 * 16 + t.val % 16 ∧ win2_0.index t (1 : Fin 3) = t.val / 16 % 4 ∧ win2_0.index t (2 : Fin 3) = 0 :=
  (by decide +kernel : ∀ t : Fin grid2.N, _)
theorem idx_w : ∀ t : Fin cfg2.N,
    win2_1.index t (0 : Fin 3) = t.val % 16 ∧ win2_1.index t (1 : Fin 3) = 0 ∧ win2_1.index t (2 : Fin 3) = 0 :=
  (by decide +kernel : ∀ t : Fin grid2.N, _)
theorem idx_out : ∀ t : Fin cfg2.N,
    win2_2.index t (0 : Fin 3) = t.val / 64 ∧ win2_2.index t (1 : Fin 3) = t.val / 16 % 4 ∧ win2_2.index t (2 : Fin 3) = 0 :=
  (by decide +kernel : ∀ t : Fin grid2.N, _)

/-- The result array as one function of the context array and the regrouped output weight. -/
def outArr (ctx : S32x2048x64.Idx → Elt Ideal .bf16) (w : S16x64x1024.Idx → Elt Ideal .f32) :
    S2x2048x1024.Idx → Elt Ideal .f32 := fun i =>
  0 + ∑ h : Fin 16, ∑ d : Fin 64,
    ctx (ix3 (⟨(i 0).val * 16 + h.val, by have h0 : (i 0).val < 2 := (i 0).isLt; omega⟩ : Fin 32) (⟨(i 1).val, (i 1).isLt⟩ : Fin 2048) d)
      * w (ix3 h d (⟨(i 2).val, (i 2).isLt⟩ : Fin 1024))

/-- What the last point of a run writes back is its block of the result array. -/
theorem flushed_eq (c : Dev nD) (t : Fin cfg2.N) (hf : t.val % 16 = 15) :
    (dat2 V c).flushed 2 t = ((cfg2.win 2).blk t).view.read (Elt Ideal) (outArr (V c main_v8) (V c main_v10)) := by
  show (cfg2.win 2).cut (grid2.coords t) ((dat2 V c).after 2 t) = _
  rw [after2_2]
  have hN : cfg2.N = 128 := N_2
  have ht : t.val < 128 := lt_of_lt_of_eq t.isLt hN
  obtain ⟨o0, o1, o2⟩ := idx_out t
  funext j
  show outsAt2 V c t.val t.isLt j = outArr (V c main_v8) (V c main_v10) (((cfg2.win 2).blk t).view.emb j)
  have hj0 : (j 0).val < 1 := (j 0).isLt
  have hj1 : (j 1).val < 512 := (j 1).isLt
  have hj2 : (j 2).val < 1024 := (j 2).isLt
  rw [outsAt_closed V c t j, hf, Finset.sum_range]
  unfold outArr
  refine congrArg (0 + ·) (Finset.sum_congr rfl fun h _ => ?_)
  have hh : h.val < 16 := h.isLt
  have hlt : 16 * (t.val / 16) + h.val < cfg2.N := lt_of_lt_of_eq (by omega : 16 * (t.val / 16) + h.val < 128) hN.symm
  obtain ⟨a0, a1, a2⟩ := idx_ctx ⟨16 * (t.val / 16) + h.val, hlt⟩
  obtain ⟨w0, w1, w2⟩ := idx_w ⟨16 * (t.val / 16) + h.val, hlt⟩
  dsimp only at a0 a1 a2 w0 w1 w2
  unfold headTerm
  rw [dif_pos hlt]
  refine Finset.sum_congr rfl fun d _ => ?_
  refine congrArg₂ (· * ·) ?_ ?_
  · show V c main_v8 (((cfg2.win 0).blk ⟨16 * (t.val / 16) + h.val, hlt⟩).view.emb (ix3 (0 : Fin 1) (⟨(j 1).val, (j 1).isLt⟩ : Fin 512) d)) = V c main_v8 _
    refine congrArg (V c main_v8) (funext fun a => Fin.ext ?_)
    match a with
    | ⟨0, _⟩ =>
      show win2_0.index ⟨16 * (t.val / 16) + h.val, hlt⟩ (0 : Fin 3) * 1 + 1 * 0 = (win2_2.index t (0 : Fin 3) * 1 + 1 * (j 0).val) * 16 + h.val
      omega
    | ⟨1, _⟩ =>
      show win2_0.index ⟨16 * (t.val / 16) + h.val, hlt⟩ (1 : Fin 3) * 512 + 1 * (j 1).val = win2_2.index t (1 : Fin 3) * 512 + 1 * (j 1).val
      omega
    | ⟨2, _⟩ =>
      show win2_0.index ⟨16 * (t.val / 16) + h.val, hlt⟩ (2 : Fin 3) * 64 + 1 * d.val = d.val
      omega
  · show V c main_v10 (((cfg2.win 1).blk ⟨16 * (t.val / 16) + h.val, hlt⟩).view.emb (ix3 (0 : Fin 1) d (⟨(j 2).val, (j 2).isLt⟩ : Fin 1024))) = V c main_v10 _
    refine congrArg (V c main_v10) (funext fun a => Fin.ext ?_)
    match a with
    | ⟨0, _⟩ =>
      show win2_1.index ⟨16 * (t.val / 16) + h.val, hlt⟩ (0 : Fin 3) * 1 + 1 * 0 = h.val
      omega
    | ⟨1, _⟩ =>
      show win2_1.index ⟨16 * (t.val / 16) + h.val, hlt⟩ (1 : Fin 3) * 64 + 1 * d.val = d.val
      omega
    | ⟨2, _⟩ =>
      show win2_1.index ⟨16 * (t.val / 16) + h.val, hlt⟩ (2 : Fin 3) * 1024 + 1 * (j 2).val = win2_2.index t (2 : Fin 3) * 1024 + 1 * (j 2).val
      omega

/-- An index of the array is in point t's block iff each coordinate is in the block's range on its axis. -/
theorem mem_blk (t : Fin cfg2.N) (i : S2x2048x1024.Idx) :
    i ∈ ((cfg2.win 2).blk t).view.set ↔ ∀ a : Fin 3, win2_2.index t a * S1x512x1024.size a ≤ (i a).val ∧ (i a).val < win2_2.index t a * S1x512x1024.size a + S1x512x1024.size a := by
  show i ∈ ((View.whole main_v11).slice (win2_2.rect t)).set ↔ _
  rw [View.set_slice_whole, Rect.mem_set_unit]
  exact Iff.rfl

/-- Every index of the result is in the block the last point of some run writes back: the run of batch (i 0) and row
    block (i 1) div 512. -/
theorem cover (i : S2x2048x1024.Idx) :
    ∃ t : Fin cfg2.N, (cfg2.win 2).flush t = true ∧ i ∈ ((cfg2.win 2).blk t).view.set := by
  have h0 : (i 0).val < 2 := (i 0).isLt
  have h1 : (i 1).val < 2048 := (i 1).isLt
  have h2 : (i 2).val < 1024 := (i 2).isLt
  have hN : cfg2.N = 128 := N_2
  obtain ⟨tv, htv⟩ : ∃ tv : ℕ, tv = ((i 0).val * 4 + (i 1).val / 512) * 16 + 15 := ⟨_, rfl⟩
  have hlt : tv < cfg2.N := by rw [hN]; omega
  obtain ⟨o0, o1, o2⟩ := idx_out ⟨tv, hlt⟩
  dsimp only at o0 o1 o2
  refine ⟨⟨tv, hlt⟩, (flush2_2 ⟨tv, hlt⟩).mpr (by show tv % 16 = 15; omega), ?_⟩
  rw [mem_blk]
  intro a
  match a with
  | ⟨0, _⟩ =>
    show win2_2.index ⟨tv, hlt⟩ (0 : Fin 3) * 1 ≤ (i 0).val ∧ (i 0).val < win2_2.index ⟨tv, hlt⟩ (0 : Fin 3) * 1 + 1
    omega
  | ⟨1, _⟩ =>
    show win2_2.index ⟨tv, hlt⟩ (1 : Fin 3) * 512 ≤ (i 1).val ∧ (i 1).val < win2_2.index ⟨tv, hlt⟩ (1 : Fin 3) * 512 + 512
    omega
  | ⟨2, _⟩ =>
    show win2_2.index ⟨tv, hlt⟩ (2 : Fin 3) * 1024 ≤ (i 2).val ∧ (i 2).val < win2_2.index ⟨tv, hlt⟩ (2 : Fin 3) * 1024 + 1024
    omega

/-- The array after the region: the result array of the context array and the regrouped weight as the region finds them. -/
theorem final (c : Dev nD) : (dat2 V c).arrAt 2 cfg2.N = outArr (V c main_v8) (V c main_v10) :=
  (dat2 V c).arrAt_eq_of_cover 2 (outArr (V c main_v8) (V c main_v10))
    (fun t hfl => flushed_eq V c t ((flush2_2 t).mp hfl)) cover

end Cert.KernelIdeal.Out

end
-- ==== Proof.RefRead.lean ====
/-
  The reference read at explicit coordinates, over the extended reals. Its three projections are one product of the
  input with the stacked weight, cut into thirds and split into heads: feature e of head h of the query is column
  h*64+e of the product, the key's is 1024 further on and the value's 2048. Its attention is the row formula of the
  specification per batch and head. Its output is the product of the merged heads with the output weight: merged
  feature d is feature d mod 64 of head d div 64.
-/
import proofs.«102044_j74131135529907_2_alg».proof.Proof.Gen.ReferenceIdeal.Read
import proofs.«102044_j74131135529907_2_alg».proof.Proof.Spec
import Idealize.ShloMosaic.Lib.ValueIdx
import Idealize.ShloMosaic.Lib.Pipeline.Value
import Idealize.ShloMosaic.PureOps.Ideal.Laws
import Idealize.ShloMosaic.Lib.ReduceAll

noncomputable section

namespace Cert.ReferenceIdeal.RefRead

open Cert.ReferenceIdeal Cert.ReferenceIdeal.Read Cert.Attn Idealize.ShloMosaic Idealize.ShloMosaic.ValueIdx

variable (x0 : (⟨S2x2048x1024, .f32⟩ : BufTy).Contents (Elt Ideal)) (x1 : (⟨S3072x1024, .f32⟩ : BufTy).Contents (Elt Ideal))
  (x2 : (⟨S1024x1024, .f32⟩ : BufTy).Contents (Elt Ideal))

/-- Row (three*1024 + h*64 + e) of the stacked weight against row (b, s) of the input. -/
def projAt (three : Fin 3) (b : Fin 2) (h : Fin 16) (s : Fin 2048) (e : Fin 64) : EReal :=
  ∑ d : Fin 1024, x0 (ix3 b s d) * x1 (ix2 (⟨three.val * 1024 + h.val * 64 + e.val, by omega⟩ : Fin 3072) d)

theorem ref_q_apply (b : Fin 2) (h : Fin 16) (s : Fin 2048) (e : Fin 64) :
    val_main_v5 (F := Ideal) x0 x1 (ix4 b h s e) = projAt x0 x1 0 b h s e := by
  rw [val_main_v5_apply, val_main_v4_apply, val_main_v1_apply, val_main_v0_apply]
  unfold projAt
  refine Finset.sum_congr rfl fun d _ => ?_
  -- The head-split array is a reshape: its row-major position ((b*2048 + s)*16 + h)*64 + e is position
  -- (b*2048 + s)*1024 + (h*64 + e) of the slice, which starts at column three*1024 of the product.
  have hb := b.isLt; have hh := h.isLt; have hs := s.isLt; have he := e.isLt
  have el : lidx_main_v0 (idx_main_v1 (idx_main_v4 (idx_main_v5 (ix4 b h s e)))) d = ix3 b s d := funext fun a => Fin.ext (by
    match a with
    | ⟨0, _⟩ => show (((b.val * 2048 + s.val) * 16 + h.val) * 64 + e.val) / 2097152 = b.val; omega
    | ⟨1, _⟩ => show (((b.val * 2048 + s.val) * 16 + h.val) * 64 + e.val) / 1024 % 2048 = s.val; omega
    | ⟨2, _⟩ => rfl)
  have er : ridx_main_v0 (idx_main_v1 (idx_main_v4 (idx_main_v5 (ix4 b h s e)))) d
      = ix2 (⟨(0 : Fin 3).val * 1024 + h.val * 64 + e.val, by omega⟩ : Fin 3072) d := funext fun a => Fin.ext (by
    match a with
    | ⟨0, _⟩ => show (((b.val * 2048 + s.val) * 16 + h.val) * 64 + e.val) % 1024 = 0 * 1024 + h.val * 64 + e.val; omega
    | ⟨1, _⟩ => rfl)
  rw [el, er]

theorem ref_k_apply (b : Fin 2) (h : Fin 16) (s : Fin 2048) (e : Fin 64) :
    val_main_v7 (F := Ideal) x0 x1 (ix4 b h s e) = projAt x0 x1 1 b h s e := by
  rw [val_main_v7_apply, val_main_v6_apply, val_main_v2_apply, val_main_v0_apply]
  unfold projAt
  refine Finset.sum_congr rfl fun d _ => ?_
  -- The head-split array is a reshape: its row-major position ((b*2048 + s)*16 + h)*64 + e is position
  -- (b*2048 + s)*1024 + (h*64 + e) of the slice, which starts at column three*1024 of the product.
  have hb := b.isLt; have hh := h.isLt; have hs := s.isLt; have he := e.isLt
  have el : lidx_main_v0 (idx_main_v2 (idx_main_v6 (idx_main_v7 (ix4 b h s e)))) d = ix3 b s d := funext fun a => Fin.ext (by
    match a with
    | ⟨0, _⟩ => show (((b.val * 2048 + s.val) * 16 + h.val) * 64 + e.val) / 2097152 = b.val; omega
    | ⟨1, _⟩ => show (((b.val * 2048 + s.val) * 16 + h.val) * 64 + e.val) / 1024 % 2048 = s.val; omega
    | ⟨2, _⟩ => rfl)
  have er : ridx_main_v0 (idx_main_v2 (idx_main_v6 (idx_main_v7 (ix4 b h s e)))) d
      = ix2 (⟨(1 : Fin 3).val * 1024 + h.val * 64 + e.val, by omega⟩ : Fin 3072) d := funext fun a => Fin.ext (by
    match a with
    | ⟨0, _⟩ => show 1024 + (((b.val * 2048 + s.val) * 16 + h.val) * 64 + e.val) % 1024 = 1 * 1024 + h.val * 64 + e.val; omega
    | ⟨1, _⟩ => rfl)
  rw [el, er]

theorem ref_v_apply (b : Fin 2) (h : Fin 16) (s : Fin 2048) (e : Fin 64) :
    val_main_v9 (F := Ideal) x0 x1 (ix4 b h s e) = projAt x0 x1 2 b h s e := by
  rw [val_main_v9_apply, val_main_v8_apply, val_main_v3_apply, val_main_v0_apply]
  unfold projAt
  refine Finset.sum_congr rfl fun d _ => ?_
  -- The head-split array is a reshape: its row-major position ((b*2048 + s)*16 + h)*64 + e is position
  -- (b*2048 + s)*1024 + (h*64 + e) of the slice, which starts at column three*1024 of the product.
  have hb := b.isLt; have hh := h.isLt; have hs := s.isLt; have he := e.isLt
  have el : lidx_main_v0 (idx_main_v3 (idx_main_v8 (idx_main_v9 (ix4 b h s e)))) d = ix3 b s d := funext fun a => Fin.ext (by
    match a with
    | ⟨0, _⟩ => show (((b.val * 2048 + s.val) * 16 + h.val) * 64 + e.val) / 2097152 = b.val; omega
    | ⟨1, _⟩ => show (((b.val * 2048 + s.val) * 16 + h.val) * 64 + e.val) / 1024 % 2048 = s.val; omega
    | ⟨2, _⟩ => rfl)
  have er : ridx_main_v0 (idx_main_v3 (idx_main_v8 (idx_main_v9 (ix4 b h s e)))) d
      = ix2 (⟨(2 : Fin 3).val * 1024 + h.val * 64 + e.val, by omega⟩ : Fin 3072) d := funext fun a => Fin.ext (by
    match a with
    | ⟨0, _⟩ => show 2048 + (((b.val * 2048 + s.val) * 16 + h.val) * 64 + e.val) % 1024 = 2 * 1024 + h.val * 64 + e.val; omega
    | ⟨1, _⟩ => rfl)
  rw [el, er]

/-- The reference's scaled scores at (b, h, s, j): the score of query row s against key row j. -/
theorem ref_v12_apply (b : Fin 2) (h : Fin 16) (s j : Fin 2048) :
    val_main_v12 (F := Ideal) x0 x1 (ix4 b h s j)
      = score (fun e => val_main_v5 (F := Ideal) x0 x1 (ix4 b h s e)) (fun e => val_main_v7 (F := Ideal) x0 x1 (ix4 b h j e)) := by
  rw [val_main_v12_apply, val_main_v10_apply, val_main_v11_apply, val_main_cst_apply, Ideal.mulf_def]
  unfold score
  refine congrArg (· * _) (Finset.sum_congr rfl fun e _ => ?_)
  have el : lidx_main_v10 (ix4 b h s j) e = ix4 b h s e := funext fun a => Fin.ext (by
    match a with | ⟨0, _⟩ => rfl | ⟨1, _⟩ => rfl | ⟨2, _⟩ => rfl | ⟨3, _⟩ => rfl)
  have er : ridx_main_v10 (ix4 b h s j) e = ix4 b h j e := funext fun a => Fin.ext (by
    match a with | ⟨0, _⟩ => rfl | ⟨1, _⟩ => rfl | ⟨2, _⟩ => rfl | ⟨3, _⟩ => rfl)
  rw [el, er]

/-- The reduced index (b, h, s) with key position k put back is (b, h, s, k). -/
theorem lift_ix3 (hr : S2x16x2048x2048.Reduces [3] S2x16x2048) (b : Fin 2) (h : Fin 16) (s : Fin 2048)
    (k : Fin (S2x16x2048x2048.size 3)) : hr.lift (ix3 b h s) k = ix4 b h s (⟨k.val, k.isLt⟩ : Fin 2048) := by
  funext c; apply Fin.ext
  match c with | ⟨0, _⟩ => rfl | ⟨1, _⟩ => rfl | ⟨2, _⟩ => rfl | ⟨3, _⟩ => rfl

/-- The reference's row maximum from the word of minus infinity, at (b, h, s): the fold of max over the key axis. -/
theorem ref_v13_apply (b : Fin 2) (h : Fin 16) (s : Fin 2048) :
    val_main_v13 (F := Ideal) x0 x1 (ix3 b h s) = rowMax (fun j => val_main_v12 (F := Ideal) x0 x1 (ix4 b h s j)) := by
  have hr : S2x16x2048x2048.Reduces [3] S2x16x2048 := by decide
  unfold val_main_v13
  rw [Host.reduce_eq_fold_single FloatOps.maximumf _ _ Gen.reducesTo_S2x16x2048x2048_S2x16x2048_d3 hr Gen.h_S_]
  unfold rowMax
  have hf : (val_main_v12 (F := Ideal) x0 x1 ∘ hr.lift (ix3 b h s)) = fun k : Fin 2048 => val_main_v12 (F := Ideal) x0 x1 (ix4 b h s k) :=
    funext fun k => congrArg (val_main_v12 (F := Ideal) x0 x1) (lift_ix3 hr b h s k)
  exact congrArg (fun f => Finset.fold max negInfW f (Finset.univ : Finset (Fin 2048))) hf

/-- The maximum of the word of minus infinity with the row maximum is the row maximum: a fold of max is at least the
    value it starts from. -/
theorem ref_v15_apply (b : Fin 2) (h : Fin 16) (s : Fin 2048) :
    val_main_v15 (F := Ideal) x0 x1 (ix3 b h s) = rowMax (fun j => val_main_v12 (F := Ideal) x0 x1 (ix4 b h s j)) := by
  rw [val_main_v15_apply, val_main_v14_apply, val_main_cst_1_apply, ref_v13_apply, Ideal.maximumf_def]
  unfold rowMax
  exact max_eq_right ((Finset.le_fold_max _).2 (Or.inl le_rfl))

theorem ref_v17_apply (b : Fin 2) (h : Fin 16) (s j : Fin 2048) :
    val_main_v17 (F := Ideal) x0 x1 (ix4 b h s j) = rowMax (fun j => val_main_v12 (F := Ideal) x0 x1 (ix4 b h s j)) := by
  rw [val_main_v17_apply, val_main_v16_apply]
  have ei : idx_main_v16 (idx_main_v17 (ix4 b h s j)) = ix3 b h s := funext fun a => Fin.ext (by
    match a with | ⟨0, _⟩ => rfl | ⟨1, _⟩ => rfl | ⟨2, _⟩ => rfl)
  rw [ei, ref_v15_apply]

/-- The exponential of a score less its row's maximum. -/
theorem ref_v19_apply (b : Fin 2) (h : Fin 16) (s j : Fin 2048) :
    val_main_v19 (F := Ideal) x0 x1 (ix4 b h s j)
      = Ideal.exp (val_main_v12 (F := Ideal) x0 x1 (ix4 b h s j) - rowMax (fun j => val_main_v12 (F := Ideal) x0 x1 (ix4 b h s j))) := by
  rw [val_main_v19_apply, val_main_v18_apply, ref_v17_apply, Ideal.hostUnary_exp_def, Ideal.subf_def]

/-- The row's sum of exponentials: the sum from the zero word is the sum. -/
theorem ref_v20_apply (b : Fin 2) (h : Fin 16) (s : Fin 2048) :
    val_main_v20 (F := Ideal) x0 x1 (ix3 b h s)
      = ∑ j : Fin 2048, Ideal.exp (val_main_v12 (F := Ideal) x0 x1 (ix4 b h s j) - rowMax (fun j => val_main_v12 (F := Ideal) x0 x1 (ix4 b h s j))) := by
  rw [val_main_v20_apply, val_main_cst_2_apply]
  show Ideal.ofBits .f32 0x00000000#32 + _ = _
  rw [Ideal.ofBits_zero_f32, zero_add]
  refine Finset.sum_congr rfl fun k _ => ?_
  have ei : idx_main_v20 (ix3 b h s) k = ix4 b h s k := funext fun a => Fin.ext (by
    match a with | ⟨0, _⟩ => rfl | ⟨1, _⟩ => rfl | ⟨2, _⟩ => rfl | ⟨3, _⟩ => rfl)
  rw [ei, ref_v19_apply]

theorem ref_v22_apply (b : Fin 2) (h : Fin 16) (s j : Fin 2048) :
    val_main_v22 (F := Ideal) x0 x1 (ix4 b h s j)
      = ∑ j : Fin 2048, Ideal.exp (val_main_v12 (F := Ideal) x0 x1 (ix4 b h s j) - rowMax (fun j => val_main_v12 (F := Ideal) x0 x1 (ix4 b h s j))) := by
  rw [val_main_v22_apply, val_main_v21_apply]
  have ei : idx_main_v21 (idx_main_v22 (ix4 b h s j)) = ix3 b h s := funext fun a => Fin.ext (by
    match a with | ⟨0, _⟩ => rfl | ⟨1, _⟩ => rfl | ⟨2, _⟩ => rfl)
  rw [ei, ref_v20_apply]

/-- The reference's softmax weight at (b, h, s, j). -/
theorem ref_v23_apply (b : Fin 2) (h : Fin 16) (s j : Fin 2048) :
    val_main_v23 (F := Ideal) x0 x1 (ix4 b h s j) = weight (fun j => val_main_v12 (F := Ideal) x0 x1 (ix4 b h s j)) j := by
  rw [val_main_v23_apply, ref_v19_apply, ref_v22_apply, Ideal.hostDivf_def]
  rfl

/-- The reference's context at (b, h, s, d) is the attention row of the specification. -/
theorem ref_ctx_apply (b : Fin 2) (h : Fin 16) (s : Fin 2048) (d : Fin 64) :
    val_main_v24 (F := Ideal) x0 x1 (ix4 b h s d)
      = attend (fun j => score (fun e => val_main_v5 (F := Ideal) x0 x1 (ix4 b h s e)) (fun e => val_main_v7 (F := Ideal) x0 x1 (ix4 b h j e)))
          (fun j => val_main_v9 (F := Ideal) x0 x1 (ix4 b h j d)) := by
  rw [val_main_v24_apply]
  unfold attend
  have hs : (fun j => score (fun e => val_main_v5 (F := Ideal) x0 x1 (ix4 b h s e)) (fun e => val_main_v7 (F := Ideal) x0 x1 (ix4 b h j e)))
      = fun j => val_main_v12 (F := Ideal) x0 x1 (ix4 b h s j) := funext fun j => (ref_v12_apply x0 x1 b h s j).symm
  rw [hs]
  refine Finset.sum_congr rfl fun j _ => ?_
  have el : lidx_main_v24 (ix4 b h s d) j = ix4 b h s j := funext fun a => Fin.ext (by
    match a with | ⟨0, _⟩ => rfl | ⟨1, _⟩ => rfl | ⟨2, _⟩ => rfl | ⟨3, _⟩ => rfl)
  have er : ridx_main_v24 (ix4 b h s d) j = ix4 b h j d := funext fun a => Fin.ext (by
    match a with | ⟨0, _⟩ => rfl | ⟨1, _⟩ => rfl | ⟨2, _⟩ => rfl | ⟨3, _⟩ => rfl)
  rw [el, er, ref_v23_apply]

/-- The reference's result at (b, s, e): the merged context row against row e of the output weight. -/
theorem ref_out_apply (b : Fin 2) (s : Fin 2048) (e : Fin 1024) :
    val_main_v27 (F := Ideal) x0 x1 x2 (ix3 b s e)
      = ∑ d : Fin 1024, val_main_v24 (F := Ideal) x0 x1 (ix4 b (⟨d.val / 64, by omega⟩ : Fin 16) s (⟨d.val % 64, by omega⟩ : Fin 64)) * x2 (ix2 e d) := by
  rw [val_main_v27_apply]
  refine Finset.sum_congr rfl fun d _ => ?_
  rw [val_main_v26_apply, val_main_v25_apply]
  -- The merged row is a reshape of the transposed context: its row-major position (b*2048 + s)*1024 + d is
  -- position ((b*2048 + s)*16 + d/64)*64 + d%64 of the array indexed (batch, position, head, feature).
  have hb := b.isLt; have hs := s.isLt; have hd := d.isLt
  have el : idx_main_v25 (idx_main_v26 (lidx_main_v27 (ix3 b s e) d))
      = ix4 b (⟨d.val / 64, by omega⟩ : Fin 16) s (⟨d.val % 64, by omega⟩ : Fin 64) := funext fun a => Fin.ext (by
    match a with
    | ⟨0, _⟩ => show ((b.val * 2048 + s.val) * 1024 + d.val) / 2097152 = b.val; omega
    | ⟨1, _⟩ => show ((b.val * 2048 + s.val) * 1024 + d.val) / 64 % 16 = d.val / 64; omega
    | ⟨2, _⟩ => show ((b.val * 2048 + s.val) * 1024 + d.val) / 1024 % 2048 = s.val; omega
    | ⟨3, _⟩ => show ((b.val * 2048 + s.val) * 1024 + d.val) % 64 = d.val % 64; omega)
  have er : ridx_main_v27 (ix3 b s e) d = ix2 e d := funext fun a => Fin.ext (by
    match a with | ⟨0, _⟩ => rfl | ⟨1, _⟩ => rfl)
  rw [el, er]

end Cert.ReferenceIdeal.RefRead

end
-- ==== Proof.Layout.lean ====
/-
  The layout operations around the regions, read at explicit coordinates, and the one regrouping of a sum the last
  projection needs. A weight of 3072 rows reshaped into 48 groups of 64 rows has row e of group g at row g*64 + e.
  The projected array cut at its leading index and its unit axis dropped is that leading slice. The output weight
  transposed and reshaped into 16 groups of 64 rows has, at (h, k, e), the weight's entry (e, h*64 + k). A sum over
  1024 merged features is the sum over 16 heads of the sums over their 64 features.
-/
import proofs.«102044_j74131135529907_2_alg».proof.Proof.Gen.KernelIdeal
import Idealize.ShloMosaic.Lib.Pipeline.Value
import Idealize.ShloMosaic.Lib.ValueIdx
import Idealize.ShloMosaic.Lib.ValueLayout

noncomputable section

namespace Cert.KernelIdeal.Layout

open Cert.KernelIdeal Idealize.ShloMosaic Idealize.ShloMosaic.ValueIdx

variable {α : Type}

theorem weight_groups_apply (w : S3072x1024.Idx → α) (h : S3072x1024.ShapeCasts S48x64x1024) (g : Fin 48) (e : Fin 64) (d : Fin 1024) :
    shapeCast S48x64x1024 w h (ix3 g e d) = w (ix2 (⟨g.val * 64 + e.val, by omega⟩ : Fin 3072) d) := by
  -- both indices sit at row-major position (g*64 + e)*1024 + d
  refine shapeCast_apply w h _ _ ?_
  rw [Shape.rowMajor_val_two, Shape.rowMajor_val_three]
  rfl

theorem head_slice_apply (A : S3x32x2048x64.Idx → α) (three : Fin 3) (off : Fin 4 → Nat) (hoff : off = ![three.val, 0, 0, 0])
    (hs : S3x32x2048x64.Slices off S1x32x2048x64) (hc : S1x32x2048x64.ShapeCasts S32x2048x64) (bh : Fin 32) (s : Fin 2048) (e : Fin 64) :
    shapeCast S32x2048x64 (extractStridedSlice S1x32x2048x64 off A hs) hc (ix3 bh s e) = A (ix4 three bh s e) := by
  subst hoff
  -- dropping the unit axis reads the slice at (0, bh, s, e); the slice shifts only the leading coordinate
  rw [shapeCast_1abc_abc_apply]
  refine extractStridedSlice_apply _ A hs _ _ fun a => ?_
  match a with
  | ⟨0, _⟩ => show three.val = three.val + 0; rfl
  | ⟨1, _⟩ => show bh.val = 0 + bh.val; exact (Nat.zero_add _).symm
  | ⟨2, _⟩ => show s.val = 0 + s.val; exact (Nat.zero_add _).symm
  | ⟨3, _⟩ => show e.val = 0 + e.val; exact (Nat.zero_add _).symm

theorem out_weight_apply (w : S1024x1024.Idx → α) (ht : S1024x1024.Transposes [1, 0] S1024x1024) (hc : S1024x1024.ShapeCasts S16x64x1024)
    (h : Fin 16) (k : Fin 64) (e : Fin 1024) :
    shapeCast S16x64x1024 (transpose S1024x1024 [1, 0] w ht) hc (ix3 h k e) = w (ix2 e (⟨h.val * 64 + k.val, by omega⟩ : Fin 1024)) := by
  -- the reshape reads the transposed matrix at row h*64 + k, column e; the transpose swaps the two
  rw [shapeCast_apply (transpose S1024x1024 [1, 0] w ht) hc (ix3 h k e) (ix2 (⟨h.val * 64 + k.val, by omega⟩ : Fin 1024) e) (by
    rw [Shape.rowMajor_val_two, Shape.rowMajor_val_three]
    rfl)]
  exact transpose_ix2_apply w ht _ _

theorem sum_heads (g : ℕ → EReal) :
    ∑ d : Fin 1024, g d.val = ∑ s ∈ Finset.range 16, ∑ k : Fin 64, g (s * 64 + k.val) := by
  -- an index below 16 * 64 is uniquely s * 64 + k with s below 16 and k below 64
  calc ∑ d : Fin 1024, g d.val
      = ∑ d : Fin (16 * 64), g d.val := rfl
    _ = ∑ p : Fin 16 × Fin 64, g (finProdFinEquiv p).val :=
        (Equiv.sum_comp finProdFinEquiv (fun d : Fin (16 * 64) => g d.val)).symm
    _ = ∑ s : Fin 16, ∑ k : Fin 64, g (finProdFinEquiv (s, k)).val := Fintype.sum_prod_type _
    _ = ∑ s : Fin 16, ∑ k : Fin 64, g (s.val * 64 + k.val) := by
        refine Finset.sum_congr rfl fun s _ => Finset.sum_congr rfl fun k _ => ?_
        congr 1
        show k.val + 64 * s.val = s.val * 64 + k.val
        omega
    _ = ∑ s ∈ Finset.range 16, ∑ k : Fin 64, g (s * 64 + k.val) :=
        Fin.sum_univ_eq_sum_range (fun s => ∑ k : Fin 64, g (s * 64 + k.val)) 16

end Cert.KernelIdeal.Layout

end
-- ==== Proof.Bridge01.lean ====
/-
  From the kernel's arrays to the reference's stages, for the first two regions. An element (three, bh, s, e) of the
  projected array, built from the input and the weight reshaped into 48 groups, is the reference's projection of batch
  bh div 16, head bh mod 16: the group three*16 + bh mod 16 starts at weight row three*1024 + (bh mod 16)*64. The attention
  row over the three leading slices of the projected array is therefore the reference's context at the same batch and head.
-/
import proofs.«102044_j74131135529907_2_alg».proof.Proof.Region0
import proofs.«102044_j74131135529907_2_alg».proof.Proof.RefRead
import proofs.«102044_j74131135529907_2_alg».proof.Proof.Layout
import proofs.«102044_j74131135529907_2_alg».proof.Proof.Spec

noncomputable section

namespace Cert.KernelIdeal.Bridge

open Cert.KernelIdeal Cert.KernelIdeal.Proj Cert.KernelIdeal.Layout Cert.Attn
open Idealize.ShloMosaic Idealize.ShloMosaic.ValueIdx
open Cert.ReferenceIdeal.RefRead (projAt ref_q_apply ref_k_apply ref_v_apply ref_ctx_apply)

variable (x0 : S2x2048x1024.Idx → Elt Ideal .f32) (x1 : S3072x1024.Idx → Elt Ideal .f32)
  (hw : S3072x1024.ShapeCasts S48x64x1024)

/-- An element of the projected array is the reference's projection row. -/
theorem qkv_eq (three : Fin 3) (bh : Fin 32) (s : Fin 2048) (e : Fin 64) :
    qkvArr x0 (shapeCast S48x64x1024 x1 hw) (ix4 three bh s e)
      = projAt x0 x1 three (⟨bh.val / 16, by omega⟩ : Fin 2) (⟨bh.val % 16, by omega⟩ : Fin 16) s e := by
  unfold qkvArr projAt
  refine Finset.sum_congr rfl fun d _ => ?_
  refine congrArg₂ (· * ·) ?_ ?_
  · -- the input factor: coordinate 1 of (three, bh, s, e) is bh, coordinate 2 is s
    rfl
  · -- the weight factor: row e of group three*16 + bh mod 16 is row (three*16 + bh mod 16)*64 + e
    refine (weight_groups_apply x1 hw _ _ d).trans ?_
    refine congrArg (fun r => x1 (ix2 r d)) (Fin.ext ?_)
    show (three.val * 16 + bh.val % 16) * 64 + e.val = three.val * 1024 + bh.val % 16 * 64 + e.val
    omega

/-- The attention row over the kernel's query, key and value arrays is the reference's context. -/
theorem ctx_eq (hs0 : S3x32x2048x64.Slices ![0, 0, 0, 0] S1x32x2048x64) (hs1 : S3x32x2048x64.Slices ![1, 0, 0, 0] S1x32x2048x64)
    (hs2 : S3x32x2048x64.Slices ![2, 0, 0, 0] S1x32x2048x64) (hc : S1x32x2048x64.ShapeCasts S32x2048x64)
    (bh : Fin 32) (s : Fin 2048) (d : Fin 64) :
    attend
      (fun j => score
        (fun e => shapeCast S32x2048x64 (extractStridedSlice S1x32x2048x64 ![0, 0, 0, 0] (qkvArr x0 (shapeCast S48x64x1024 x1 hw)) hs0) hc (ix3 bh s e))
        (fun e => shapeCast S32x2048x64 (extractStridedSlice S1x32x2048x64 ![1, 0, 0, 0] (qkvArr x0 (shapeCast S48x64x1024 x1 hw)) hs1) hc (ix3 bh j e)))
      (fun j => shapeCast S32x2048x64 (extractStridedSlice S1x32x2048x64 ![2, 0, 0, 0] (qkvArr x0 (shapeCast S48x64x1024 x1 hw)) hs2) hc (ix3 bh j d))
      = Cert.ReferenceIdeal.Read.val_main_v24 (F := Ideal) x0 x1 (ix4 (⟨bh.val / 16, by omega⟩ : Fin 2) (⟨bh.val % 16, by omega⟩ : Fin 16) s d) := by
  refine Eq.trans ?_ (ref_ctx_apply x0 x1 _ _ s d).symm
  refine congrArg₂ attend (funext fun j => congrArg₂ score (funext fun e => ?_) (funext fun e => ?_)) (funext fun j => ?_)
  · exact (head_slice_apply _ (0 : Fin 3) _ rfl hs0 hc bh s e).trans
      ((qkv_eq x0 x1 hw 0 bh s e).trans (ref_q_apply x0 x1 _ _ s e).symm)
  · exact (head_slice_apply _ (1 : Fin 3) _ rfl hs1 hc bh j e).trans
      ((qkv_eq x0 x1 hw 1 bh j e).trans (ref_k_apply x0 x1 _ _ j e).symm)
  · exact (head_slice_apply _ (2 : Fin 3) _ rfl hs2 hc bh j d).trans
      ((qkv_eq x0 x1 hw 2 bh j d).trans (ref_v_apply x0 x1 _ _ j d).symm)

end Cert.KernelIdeal.Bridge

end
-- ==== Proof.Bridge2.lean ====
/-
  From the kernel's result to the reference's, for the third region. The kernel sums, over the 16 heads, the products of
  a context row of head b*16 + h with column e of group h of the regrouped output weight, from zero. Group h of the
  transposed weight at (d, e) is the weight's entry (e, h*64 + d), and the reference's merged context has feature
  h*64 + d of a row at feature d of head h: so the double sum over heads and features is the reference's one sum over
  the 1024 merged features, regrouped, and adding it to zero changes nothing.
-/
import proofs.«102044_j74131135529907_2_alg».proof.Proof.RefRead
import proofs.«102044_j74131135529907_2_alg».proof.Proof.Layout
import proofs.«102044_j74131135529907_2_alg».proof.Proof.Spec

noncomputable section

namespace Cert.KernelIdeal.Bridge

open Cert.KernelIdeal Cert.KernelIdeal.Layout
open Idealize.ShloMosaic Idealize.ShloMosaic.ValueIdx
open Cert.ReferenceIdeal.RefRead (ref_out_apply)

/-- The reference's summand at merged feature n, as a total function of n: feature n mod 64 of head n div 64 of the
    context row against entry (e, n) of the output weight, and zero past the 1024 features, where it is never used. -/
def refTerm (x0 : S2x2048x1024.Idx → Elt Ideal .f32) (x1 : S3072x1024.Idx → Elt Ideal .f32) (x2 : S1024x1024.Idx → Elt Ideal .f32)
    (b : Fin 2) (s : Fin 2048) (e : Fin 1024) (n : ℕ) : EReal :=
  if hn : n < 1024 then
    Cert.ReferenceIdeal.Read.val_main_v24 (F := Ideal) x0 x1 (ix4 b (⟨n / 64, by omega⟩ : Fin 16) s (⟨n % 64, by omega⟩ : Fin 64))
      * x2 (ix2 e (⟨n, hn⟩ : Fin 1024))
  else 0

/-- An element of the kernel's result is the reference's, given that the context array is the reference's context. -/
theorem out_eq (x0 : S2x2048x1024.Idx → Elt Ideal .f32) (x1 : S3072x1024.Idx → Elt Ideal .f32) (x2 : S1024x1024.Idx → Elt Ideal .f32)
    (C : S32x2048x64.Idx → Elt Ideal .bf16)
    (hC : ∀ (bh : Fin 32) (s : Fin 2048) (d : Fin 64),
      C (ix3 bh s d) = Cert.ReferenceIdeal.Read.val_main_v24 (F := Ideal) x0 x1 (ix4 (⟨bh.val / 16, by omega⟩ : Fin 2) (⟨bh.val % 16, by omega⟩ : Fin 16) s d))
    (ht : S1024x1024.Transposes [1, 0] S1024x1024) (hc : S1024x1024.ShapeCasts S16x64x1024)
    (b : Fin 2) (s : Fin 2048) (e : Fin 1024) :
    (0 : EReal) + ∑ h : Fin 16, ∑ d : Fin 64,
        C (ix3 (⟨b.val * 16 + h.val, by omega⟩ : Fin 32) s d) * shapeCast S16x64x1024 (transpose S1024x1024 [1, 0] x2 ht) hc (ix3 h d e)
      = Cert.ReferenceIdeal.Read.val_main_v27 (F := Ideal) x0 x1 x2 (ix3 b s e) := by
  rw [zero_add]
  refine Eq.trans ?_ (ref_out_apply x0 x1 x2 b s e).symm
  -- The reference's sum over the 1024 merged features, written over a total summand and regrouped as 16 heads of 64.
  have hsum : (∑ dd : Fin 1024, Cert.ReferenceIdeal.Read.val_main_v24 (F := Ideal) x0 x1
        (ix4 b (⟨dd.val / 64, by omega⟩ : Fin 16) s (⟨dd.val % 64, by omega⟩ : Fin 64)) * x2 (ix2 e dd))
      = ∑ dd : Fin 1024, refTerm x0 x1 x2 b s e dd.val :=
    Finset.sum_congr rfl fun dd _ => by unfold refTerm; rw [dif_pos dd.isLt]
  rw [hsum, sum_heads, Finset.sum_range]
  refine Finset.sum_congr rfl fun h _ => Finset.sum_congr rfl fun d _ => ?_
  have hb := b.isLt; have hh := h.isLt; have hd := d.isLt
  -- Head b*16 + h is head h of batch b, and merged feature h*64 + d is feature d of head h.
  rw [hC, out_weight_apply]
  unfold refTerm
  rw [dif_pos (show h.val * 64 + d.val < 1024 by omega)]
  refine congrArg₂ (· * ·) (congrArg (Cert.ReferenceIdeal.Read.val_main_v24 (F := Ideal) x0 x1) (funext fun a => Fin.ext (by
    match a with
    | ⟨0, _⟩ => show (b.val * 16 + h.val) / 16 = b.val; omega
    | ⟨1, _⟩ => show (b.val * 16 + h.val) % 16 = (h.val * 64 + d.val) / 64; omega
    | ⟨2, _⟩ => rfl
    | ⟨3, _⟩ => show d.val = (h.val * 64 + d.val) % 64; omega))) rfl

end Cert.KernelIdeal.Bridge

end
-- ==== Proof.Whole.lean ====
/-
  The idealized kernel's result as a function of its three arguments, and that this function is the reference's.
  Reading the boundaries backwards: the result is what the third region leaves, the head-merged projection of the context
  array and the regrouped output weight; the context array is what the second region leaves, the attention rows of the
  three leading slices of the projected array; the projected array is what the first region leaves, the product of the
  input with the grouped stacked weight. Element by element that composite is the reference's result.
-/
import proofs.«102044_j74131135529907_2_alg».proof.Proof.KernelRun
import proofs.«102044_j74131135529907_2_alg».proof.Proof.HostStretch
import proofs.«102044_j74131135529907_2_alg».proof.Proof.Region0
import proofs.«102044_j74131135529907_2_alg».proof.Proof.Region1
import proofs.«102044_j74131135529907_2_alg».proof.Proof.Region2
import proofs.«102044_j74131135529907_2_alg».proof.Proof.Bridge01
import proofs.«102044_j74131135529907_2_alg».proof.Proof.Bridge2

set_option maxRecDepth 16384

noncomputable section

namespace Cert.KernelIdeal.Whole

open Cert.KernelIdeal Cert.KernelIdeal.Gen
open Cert.KernelIdeal.Proj (qkvArr)
open Cert.KernelIdeal.Ctx (ctxArr)
open Cert.KernelIdeal.Out (outArr)
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The projected array after the first region, of the launched input and stacked weight. -/
theorem projected (c : Dev nD) : W2 m ρ c (Proc.devRef .tc main_v1)
    = qkvArr (m ((c : Thread nD τ).loc main_arg0))
        (shapeCast S48x64x1024 (m ((c : Thread nD τ).loc main_arg1)) Facts₀.shapeCasts_S3072x1024_S48x64x1024) := by
  refine (W2_arr m ρ c 2).trans ((Proj.final (V1 m ρ) c).trans ?_)
  rw [Host.entry0_x m ρ c, Host.entry0_w m ρ c]

/-- The query, key and value arrays the second region finds. -/
abbrev headArr (three : Fin 3) (off : Fin 4 → Nat) (hs : S3x32x2048x64.Slices off S1x32x2048x64) (c : Dev nD) :
    S32x2048x64.Idx → Elt Ideal .bf16 :=
  shapeCast S32x2048x64
    (extractStridedSlice S1x32x2048x64 off
      (qkvArr (m ((c : Thread nD τ).loc main_arg0))
        (shapeCast S48x64x1024 (m ((c : Thread nD τ).loc main_arg1)) Facts₀.shapeCasts_S3072x1024_S48x64x1024)) hs)
    Facts₀.shapeCasts_S1x32x2048x64_S32x2048x64

theorem entry_q (c : Dev nD) : V3 m ρ c main_v3 = headArr m 0 ![0, 0, 0, 0] Facts₀.slices_S3x32x2048x64_S1x32x2048x64_0_0_0_0 c := by
  refine (Host.entry1_q m ρ c).trans ?_
  rw [projected m ρ c]
theorem entry_k (c : Dev nD) : V3 m ρ c main_v5 = headArr m 1 ![1, 0, 0, 0] Facts₀.slices_S3x32x2048x64_S1x32x2048x64_1_0_0_0 c := by
  refine (Host.entry1_k m ρ c).trans ?_
  rw [projected m ρ c]
theorem entry_v (c : Dev nD) : V3 m ρ c main_v7 = headArr m 2 ![2, 0, 0, 0] Facts₀.slices_S3x32x2048x64_S1x32x2048x64_2_0_0_0 c := by
  refine (Host.entry1_v m ρ c).trans ?_
  rw [projected m ρ c]

/-- The context array after the second region. -/
theorem context (c : Dev nD) : W4 m ρ c (Proc.devRef .tc main_v8)
    = ctxArr (headArr m 0 ![0, 0, 0, 0] Facts₀.slices_S3x32x2048x64_S1x32x2048x64_0_0_0_0 c)
        (headArr m 1 ![1, 0, 0, 0] Facts₀.slices_S3x32x2048x64_S1x32x2048x64_1_0_0_0 c)
        (headArr m 2 ![2, 0, 0, 0] Facts₀.slices_S3x32x2048x64_S1x32x2048x64_2_0_0_0 c) := by
  refine (W4_arr m ρ c 3).trans ((Ctx.final (V3 m ρ) c).trans ?_)
  rw [entry_q m ρ c, entry_k m ρ c, entry_v m ρ c]

/-- The result array after the third region. -/
theorem result (c : Dev nD) : W6 m ρ c (Proc.devRef .tc main_v11)
    = outArr
        (ctxArr (headArr m 0 ![0, 0, 0, 0] Facts₀.slices_S3x32x2048x64_S1x32x2048x64_0_0_0_0 c)
          (headArr m 1 ![1, 0, 0, 0] Facts₀.slices_S3x32x2048x64_S1x32x2048x64_1_0_0_0 c)
          (headArr m 2 ![2, 0, 0, 0] Facts₀.slices_S3x32x2048x64_S1x32x2048x64_2_0_0_0 c))
        (shapeCast S16x64x1024 (transpose S1024x1024 [1, 0] (m ((c : Thread nD τ).loc main_arg2)) Facts₀.transposes_S1024x1024_S1024x1024_1_0)
          Facts₀.shapeCasts_S1024x1024_S16x64x1024) := by
  refine (W6_arr m ρ c 2).trans ((Out.final (V5 m ρ) c).trans ?_)
  rw [Host.entry2_ctx m ρ c, Host.entry2_w m ρ c, Host.kept_w_out m ρ c, context m ρ c]

/-- Element by element the kernel's result is the reference's result of the same three arrays. -/
theorem result_eq_reference (c : Dev nD) : W6 m ρ c (Proc.devRef .tc main_v11)
    = Cert.ReferenceIdeal.Read.val_main_v27 (F := Ideal) (m ((c : Thread nD τ).loc main_arg0)) (m ((c : Thread nD τ).loc main_arg1))
        (m ((c : Thread nD τ).loc main_arg2)) := by
  rw [result m ρ c]
  funext i
  rw [eq_ix3 i]
  exact Bridge.out_eq (m ((c : Thread nD τ).loc main_arg0)) (m ((c : Thread nD τ).loc main_arg1)) (m ((c : Thread nD τ).loc main_arg2))
    _ (fun bh s d => Bridge.ctx_eq (m ((c : Thread nD τ).loc main_arg0)) (m ((c : Thread nD τ).loc main_arg1)) _ _ _ _ _ bh s d) _ _ (i 0) (i 1) (i 2)

end Cert.KernelIdeal.Whole

end
-- ==== Proof.lean ====
/-
  A fused attention layer against its plain reference, over the extended reals.

  The kernel computes in three pipelined stages. The first multiplies each block of 512 input rows by each of the 48
  groups of 64 rows of the stacked projection weight and stores the products head by head: query, key and value arrays
  of 32 batch-heads, 2048 positions and 64 features. The second, for each batch-head and each block of 512 queries,
  forms the scores against all 2048 keys, scales them by 1/8, subtracts the row maximum, exponentiates, divides by the row
  sum, and multiplies by the values. The third, for each batch and block of 512 positions, adds up over the 16 heads the
  product of the head's context block with the head's 64 rows of the transposed output weight, starting from zero.

  The reference multiplies the input by the whole stacked weight, cuts the product into thirds and heads, applies the
  same row formula, merges the heads back into 1024 features and multiplies by the output weight.

  Read exactly, a change of float format is the identity and a matrix product is a sum of products, so both programs
  compute the same projections and the same attention rows; the only difference is that the kernel's last sum runs
  over heads and then features where the reference's runs over the 1024 merged features at once, and a sum of extended
  reals may be regrouped freely. The reference's extra maximum of its row maximum with minus infinity changes nothing,
  since the row maximum already starts from minus infinity. No finiteness of the inputs is used.

  The ideal pass rewrote nothing in the kernel, so the kernel's idealization is its own text read exactly.
-/
import proofs.«102044_j74131135529907_2_alg».proof.Defs
import proofs.«102044_j74131135529907_2_alg».proof.Proof.Gen.Kernel
import proofs.«102044_j74131135529907_2_alg».proof.Proof.Gen.Kernel.Skeleton
import proofs.«102044_j74131135529907_2_alg».proof.Proof.Gen.Kernel.Launch
import proofs.«102044_j74131135529907_2_alg».proof.Proof.Gen.Kernel.Points
import proofs.«102044_j74131135529907_2_alg».proof.Proof.Gen.Kernel.Frame
import proofs.«102044_j74131135529907_2_alg».proof.Proof.Gen.KernelIdeal
import proofs.«102044_j74131135529907_2_alg».proof.Proof.Gen.KernelIdeal.Skeleton
import proofs.«102044_j74131135529907_2_alg».proof.Proof.Gen.KernelIdeal.Launch
import proofs.«102044_j74131135529907_2_alg».proof.Proof.Gen.KernelIdeal.Points
import proofs.«102044_j74131135529907_2_alg».proof.Proof.Gen.KernelIdeal.Frame
import proofs.«102044_j74131135529907_2_alg».proof.Proof.Gen.ReferenceIdeal
import proofs.«102044_j74131135529907_2_alg».proof.Proof.Gen.ReferenceIdeal.Run
import proofs.«102044_j74131135529907_2_alg».proof.Proof.Gen.ReferenceIdeal.Read
import proofs.«102044_j74131135529907_2_alg».proof.Proof.Gen.Pre_finite_inputs
import proofs.«102044_j74131135529907_2_alg».proof.Proof.Whole
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does its exact reading. -/
theorem frame_kernel_ideal : Cert.frame_KernelIdeal := fun m ρ _ => Cert.KernelIdeal.Gen.frame m ρ

/-- The reference is a straight line of host operations: it runs, and writes none of its arguments. -/
theorem frame_reference_ideal : Cert.frame_ReferenceIdeal := fun m ρ _ =>
  (θ_run Cert.ReferenceIdeal.defs _ _).mono (fun _ h c => (h c).2) (Cert.ReferenceIdeal.Value.run (F := Ideal) m ρ)

/-- Nothing of the kernel was rewritten for the exact reading. -/
theorem preserves : Cert.preserves_Kernel_KernelIdeal := trivial

/-- From memories that agree on the three arguments both programs run, and the kernel's result array equals the
    reference's element by element. -/
theorem algebraic : Cert.algebraic_KernelIdeal_ReferenceIdeal := by
  intro m ρ m' ρ' _ hagree
  refine ⟨fun c => Cert.KernelIdeal.Gen.W6 m ρ c (Proc.devRef .tc Cert.KernelIdeal.main_v11), Cert.KernelIdeal.Whole.run_main m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, (hagree c).1, (hagree c).2.1, (hagree c).2.2]
  exact (Cert.KernelIdeal.Whole.result_eq_reference m ρ c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
